-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S544768 : Shape := ⟨1, ![544768]⟩
abbrev S16384 : Shape := ⟨1, ![16384]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S544768 : S_.BroadcastsInDim S544768 (![] : Fin 0 → Fin S544768.rank)
  reducesTo_S544768_S_d0 : S544768.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S544768 .f32) (main_arg5 : FVec F S16384 .f32) (main_v13 : IVec S_ 1) (main_v16 : IVec S544768 1) : IVec S_ 1 :=
  let main_c_5 : IVec S_ 1 := constantI S_ 1 1#1
  let main_v17 : IVec S_ 1 := (fun x v => Host.reduce IntOp.andi x v reducesTo_S544768_S_d0 h_S_) main_v16 main_c_5
  let main_v18 : IVec S_ 1 := andi main_v13 main_v17
  let main_v19 : FVec F S544768 .f32 := Host.absf main_arg4
  let main_cst_6 : FVec F S_ .f32 := constant S_ .f32 0x7F800000#32
  let main_v20 : FVec F S544768 .f32 := broadcastInDim S544768 ![] bcast_S_S544768 main_cst_6
  let main_v21 : IVec S544768 1 := cmpf .olt main_v19 main_v20
  let main_c_7 : IVec S_ 1 := constantI S_ 1 1#1
  let main_v22 : IVec S_ 1 := (fun x v => Host.reduce IntOp.andi x v reducesTo_S544768_S_d0 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  main_v28

def fn {F : FTy → Type} [FloatOps F] (main_arg0 : FVec F S256x4096 .f32) (main_arg1 : FVec F S256x4096 .f32) (main_arg2 : FVec F S256x4096 .f32) (main_arg3 : FVec F S544768 .f32) (main_arg4 : FVec F S544768 .f32) (main_arg5 : FVec F S16384 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S544768 .f32 := Host.absf main_arg3
  let main_cst_4 : FVec F S_ .f32 := constant S_ .f32 0x7F800000#32
  let main_v15 : FVec F S544768 .f32 := broadcastInDim S544768 ![] bcast_S_S544768 main_cst_4
  let main_v16 : IVec S544768 1 := cmpf .olt main_v14 main_v15
  fn_part1 (F := F) main_arg4 main_arg5 main_v13 main_v16
-- ==== Kernel.lean ====
abbrev S256x4096 : Shape := ⟨2, ![256, 4096]⟩
abbrev S544768 : Shape := ⟨1, ![544768]⟩
abbrev S16384 : Shape := ⟨1, ![16384]⟩
abbrev S4096 : Shape := ⟨1, ![4096]⟩
abbrev S8x512 : Shape := ⟨2, ![8, 512]⟩
abbrev S262144 : Shape := ⟨1, ![262144]⟩
abbrev S512x512 : Shape := ⟨2, ![512, 512]⟩
abbrev S512x32 : Shape := ⟨2, ![512, 32]⟩
abbrev S1x16384 : Shape := ⟨2, ![1, 16384]⟩
abbrev S8x4096 : Shape := ⟨2, ![8, 4096]⟩
abbrev S4096x8 : Shape := ⟨2, ![4096, 8]⟩
abbrev S4096x512 : Shape := ⟨2, ![4096, 512]⟩
abbrev S262144x8 : Shape := ⟨2, ![262144, 8]⟩
abbrev S8x262144 : Shape := ⟨2, ![8, 262144]⟩
abbrev S4096x32 : Shape := ⟨2, ![4096, 32]⟩
abbrev S32x4096 : Shape := ⟨2, ![32, 4096]⟩
abbrev S16384x8 : Shape := ⟨2, ![16384, 8]⟩
abbrev S8x16384 : Shape := ⟨2, ![8, 16384]⟩

abbrev nBuf : Space → Nat
  | .hbm => 33
  | .vmem => 19
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .f32⟩
  | .hbm, ⟨3, _⟩ => ⟨S544768, .f32⟩
  | .hbm, ⟨4, _⟩ => ⟨S544768, .f32⟩
  | .hbm, ⟨5, _⟩ => ⟨S16384, .f32⟩
  | .hbm, ⟨6, _⟩ => ⟨S4096, .f32⟩
  | .hbm, ⟨7, _⟩ => ⟨S8x512, .f32⟩
  | .hbm, ⟨8, _⟩ => ⟨S8x512, .bf16⟩
  | .hbm, ⟨9, _⟩ => ⟨S262144, .f32⟩
  | .hbm, ⟨10, _⟩ => ⟨S512x512, .f32⟩
  | .hbm, ⟨11, _⟩ => ⟨S512x512, .bf16⟩
  | .hbm, ⟨12, _⟩ => ⟨S262144, .f32⟩
  | .hbm, ⟨13, _⟩ => ⟨S512x512, .f32⟩
  | .hbm, ⟨14, _⟩ => ⟨S512x512, .bf16⟩
  | .hbm, ⟨15, _⟩ => ⟨S16384, .f32⟩
  | .hbm, ⟨16, _⟩ => ⟨S512x32, .f32⟩
  | .hbm, ⟨17, _⟩ => ⟨S512x32, .bf16⟩
  | .hbm, ⟨18, _⟩ => ⟨S4096, .f32⟩
  | .hbm, ⟨19, _⟩ => ⟨S8x512, .f32⟩
  | .hbm, ⟨20, _⟩ => ⟨S8x512, .bf16⟩
  | .hbm, ⟨21, _⟩ => ⟨S262144, .f32⟩
  | .hbm, ⟨22, _⟩ => ⟨S512x512, .f32⟩
  | .hbm, ⟨23, _⟩ => ⟨S512x512, .bf16⟩
  | .hbm, ⟨24, _⟩ => ⟨S262144, .f32⟩
  | .hbm, ⟨25, _⟩ => ⟨S512x512, .f32⟩
  | .hbm, ⟨26, _⟩ => ⟨S512x512, .bf16⟩
  | .hbm, ⟨27, _⟩ => ⟨S16384, .f32⟩
  | .hbm, ⟨28, _⟩ => ⟨S512x32, .f32⟩
  | .hbm, ⟨29, _⟩ => ⟨S512x32, .bf16⟩
  | .hbm, ⟨30, _⟩ => ⟨S1x16384, .f32⟩
  | .hbm, ⟨31, _⟩ => ⟨S256x4096, .f32⟩
  | .hbm, ⟨32, _⟩ => ⟨S256x4096, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S1x16384, .f32⟩
  | .local _ .vmem, ⟨7, _⟩ => ⟨S8x512, .bf16⟩
  | .local _ .vmem, ⟨8, _⟩ => ⟨S512x512, .bf16⟩
  | .local _ .vmem, ⟨9, _⟩ => ⟨S512x512, .bf16⟩
  | .local _ .vmem, ⟨10, _⟩ => ⟨S512x32, .bf16⟩
  | .local _ .vmem, ⟨11, _⟩ => ⟨S8x512, .bf16⟩
  | .local _ .vmem, ⟨12, _⟩ => ⟨S512x512, .bf16⟩
  | .local _ .vmem, ⟨13, _⟩ => ⟨S512x512, .bf16⟩
  | .local _ .vmem, ⟨14, _⟩ => ⟨S512x32, .bf16⟩
  | .local _ .vmem, ⟨15, _⟩ => ⟨S8x4096, .f32⟩
  | .local _ .vmem, ⟨16, _⟩ => ⟨S8x4096, .f32⟩
  | .local _ .vmem, ⟨17, _⟩ => ⟨S8x4096, .f32⟩
  | .local _ .vmem, ⟨18, _⟩ => ⟨S8x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S544768_S4096_0 : S544768.Slices ![0] S4096
  shapeCasts_S4096_S8x512 : S4096.ShapeCasts S8x512
  bitsLt_bf16_f32 : FTy.bits .bf16 < FTy.bits .f32
  slices_S544768_S262144_4096 : S544768.Slices ![4096] S262144
  shapeCasts_S262144_S512x512 : S262144.ShapeCasts S512x512
  slices_S544768_S262144_266240 : S544768.Slices ![266240] S262144
  slices_S544768_S16384_528384 : S544768.Slices ![528384] S16384
  shapeCasts_S16384_S512x32 : S16384.ShapeCasts S512x32
  shapeCasts_S16384_S1x16384 : S16384.ShapeCasts S1x16384
  inb_S8x4096_S8x4096_0_0 : ∀ a, (![0, 0] : Fin 2 → Nat) a + S8x4096.size a ≤ S8x4096.size a
  h_S8x4096 : 0 < S8x4096.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S8x4096_S4096x8 : S8x4096.ShapeCasts S4096x8
  shapeCasts_S4096x512_S262144x8 : S4096x512.ShapeCasts S262144x8
  transposes_S262144x8_p1_0_S8x262144 : S262144x8.Transposes [1, 0] S8x262144
  shapeCasts_S8x262144_S4096x512 : S8x262144.ShapeCasts S4096x512
  transposes_S4096x32_p1_0_S32x4096 : S4096x32.Transposes [1, 0] S32x4096
  shapeCasts_S32x4096_S16384x8 : S32x4096.ShapeCasts S16384x8
  transposes_S16384x8_p1_0_S8x16384 : S16384x8.Transposes [1, 0] S8x16384
  broadcasts_S1x16384_S8x16384 : S1x16384.Broadcasts S8x16384
  slices_S8x16384_o0_0_S8x4096 : S8x16384.Slices ![0, 0] S8x4096
  slices_S8x16384_o0_4096_S8x4096 : S8x16384.Slices ![0, 4096] S8x4096
  slices_S8x16384_o0_8192_S8x4096 : S8x16384.Slices ![0, 8192] S8x4096
  slices_S8x16384_o0_12288_S8x4096 : S8x16384.Slices ![0, 12288] S8x4096
  dot_S4096x8_S8x512_S4096x512_1_0_0_1_n_n_wf : DotDims.WF S4096x8 S8x512 S4096x512 [1] [0] [0] [1] [] []
  dot_S4096x512_S512x512_S4096x512_1_0_0_1_n_n_wf : DotDims.WF S4096x512 S512x512 S4096x512 [1] [0] [0] [1] [] []
  dot_S4096x512_S512x32_S4096x32_1_0_0_1_n_n_wf : DotDims.WF S4096x512 S512x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S256x4096.size a
  hwx0_0 : ∀ i : grid0.Coords, EltTy.bits .f32 = 32 ∨ (Rect.block (s := S256x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S256x4096.size a
  hwx0_1 : ∀ i : grid0.Coords, EltTy.bits .f32 = 32 ∨ (Rect.block (s := S256x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S256x4096.size a
  hwx0_2 : ∀ i : grid0.Coords, EltTy.bits .f32 = 32 ∨ (Rect.block (s := S256x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x512.size a
  hwx0_4 : ∀ i : grid0.Coords, EltTy.bits .bf16 = 32 ∨ (Rect.block (s := S8x512) S8x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x32.size a ≤ S512x32.size a
  hwx0_7 : ∀ i : grid0.Coords, EltTy.bits .bf16 = 32 ∨ (Rect.block (s := S512x32) S512x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x512.size a ≤ S8x512.size a
  hwx0_8 : ∀ i : grid0.Coords, EltTy.bits .bf16 = 32 ∨ (Rect.block (s := S8x512) S8x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x32.size a ≤ S512x32.size a
  hwx0_11 : ∀ i : grid0.Coords, EltTy.bits .bf16 = 32 ∨ (Rect.block (s := S512x32) S512x32.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x4096.size a ≤ S256x4096.size a
  hwx0_12 : ∀ i : grid0.Coords, EltTy.bits .f32 = 32 ∨ (Rect.block (s := S256x4096) S8x4096.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x4096.size a ≤ S256x4096.size a
  hwx0_13 : ∀ i : grid0.Coords, EltTy.bits .f32 = 32 ∨ (Rect.block (s := S256x4096) S8x4096.size (cc0_transform_13 i) (hinb0_13 i)).WholeWords (EltTy.packing .f32)

variable [Facts₀]

def dot_S4096x8_S8x512_S4096x512_1_0_0_1_n_n : DotDims S4096x8 S8x512 S4096x512 where
  lhsContracting := [1]
  rhsContracting := [0]
  lhsNonContracting := [0]
  rhsNonContracting := [1]
  lhsBatch := []
  rhsBatch := []
  wf := dot_S4096x8_S8x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf

abbrev win0_0 : Pipeline.Window sig grid0 :=
  Pipeline.Window.ofSpec (Memref.whole main_arg0) S8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S8x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S512x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25_0) S8x4096.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v25_1) S8x4096.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S256x4096 : Shape := ⟨2, ![256, 4096]⟩
abbrev S544768 : Shape := ⟨1, ![544768]⟩
abbrev S16384 : Shape := ⟨1, ![16384]⟩
abbrev S4096 : Shape := ⟨1, ![4096]⟩
abbrev S8x512 : Shape := ⟨2, ![8, 512]⟩
abbrev S131072x8 : Shape := ⟨2, ![131072, 8]⟩
abbrev S131072x512 : Shape := ⟨2, ![131072, 512]⟩
abbrev S8388608x8 : Shape := ⟨2, ![8388608, 8]⟩
abbrev S8x8388608 : Shape := ⟨2, ![8, 8388608]⟩
abbrev S262144 : Shape := ⟨1, ![262144]⟩
abbrev S512x512 : Shape := ⟨2, ![512, 512]⟩
abbrev S512x32 : Shape := ⟨2, ![512, 32]⟩
abbrev S131072x32 : Shape := ⟨2, ![131072, 32]⟩
abbrev S32x131072 : Shape := ⟨2, ![32, 131072]⟩
abbrev S16384x256 : Shape := ⟨2, ![16384, 256]⟩
abbrev S256x16384 : Shape := ⟨2, ![256, 16384]⟩
abbrev S1x16384 : Shape := ⟨2, ![1, 16384]⟩
abbrev S_ : Shape := ⟨0, ![]⟩

abbrev nBuf : Space → Nat
  | .hbm => 112
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .f32⟩
  | .hbm, ⟨3, _⟩ => ⟨S544768, .f32⟩
  | .hbm, ⟨4, _⟩ => ⟨S544768, .f32⟩
  | .hbm, ⟨5, _⟩ => ⟨S16384, .f32⟩
  | .hbm, ⟨6, _⟩ => ⟨S4096, .f32⟩
  | .hbm, ⟨7, _⟩ => ⟨S8x512, .f32⟩
  | .hbm, ⟨8, _⟩ => ⟨S131072x8, .f32⟩
  | .hbm, ⟨9, _⟩ => ⟨S131072x512, .f32⟩
  | .hbm, ⟨10, _⟩ => ⟨S8388608x8, .f32⟩
  | .hbm, ⟨11, _⟩ => ⟨S8x8388608, .f32⟩
  | .hbm, ⟨12, _⟩ => ⟨S262144, .f32⟩
  | .hbm, ⟨13, _⟩ => ⟨S512x512, .f32⟩
  | .hbm, ⟨14, _⟩ => ⟨S131072x512, .f32⟩
  | .hbm, ⟨15, _⟩ => ⟨S131072x512, .f32⟩
  | .hbm, ⟨16, _⟩ => ⟨S8388608x8, .f32⟩
  | .hbm, ⟨17, _⟩ => ⟨S8x8388608, .f32⟩
  | .hbm, ⟨18, _⟩ => ⟨S262144, .f32⟩
  | .hbm, ⟨19, _⟩ => ⟨S512x512, .f32⟩
  | .hbm, ⟨20, _⟩ => ⟨S131072x512, .f32⟩
  | .hbm, ⟨21, _⟩ => ⟨S131072x512, .f32⟩
  | .hbm, ⟨22, _⟩ => ⟨S8388608x8, .f32⟩
  | .hbm, ⟨23, _⟩ => ⟨S8x8388608, .f32⟩
  | .hbm, ⟨24, _⟩ => ⟨S16384, .f32⟩
  | .hbm, ⟨25, _⟩ => ⟨S512x32, .f32⟩
  | .hbm, ⟨26, _⟩ => ⟨S131072x512, .f32⟩
  | .hbm, ⟨27, _⟩ => ⟨S131072x32, .f32⟩
  | .hbm, ⟨28, _⟩ => ⟨S32x131072, .f32⟩
  | .hbm, ⟨29, _⟩ => ⟨S16384x256, .f32⟩
  | .hbm, ⟨30, _⟩ => ⟨S256x16384, .f32⟩
  | .hbm, ⟨31, _⟩ => ⟨S4096, .f32⟩
  | .hbm, ⟨32, _⟩ => ⟨S8x512, .f32⟩
  | .hbm, ⟨33, _⟩ => ⟨S131072x8, .f32⟩
  | .hbm, ⟨34, _⟩ => ⟨S131072x512, .f32⟩
  | .hbm, ⟨35, _⟩ => ⟨S8388608x8, .f32⟩
  | .hbm, ⟨36, _⟩ => ⟨S8x8388608, .f32⟩
  | .hbm, ⟨37, _⟩ => ⟨S262144, .f32⟩
  | .hbm, ⟨38, _⟩ => ⟨S512x512, .f32⟩
  | .hbm, ⟨39, _⟩ => ⟨S131072x512, .f32⟩
  | .hbm, ⟨40, _⟩ => ⟨S131072x512, .f32⟩
  | .hbm, ⟨41, _⟩ => ⟨S8388608x8, .f32⟩
  | .hbm, ⟨42, _⟩ => ⟨S8x8388608, .f32⟩
  | .hbm, ⟨43, _⟩ => ⟨S262144, .f32⟩
  | .hbm, ⟨44, _⟩ => ⟨S512x512, .f32⟩
  | .hbm, ⟨45, _⟩ => ⟨S131072x512, .f32⟩
  | .hbm, ⟨46, _⟩ => ⟨S131072x512, .f32⟩
  | .hbm, ⟨47, _⟩ => ⟨S8388608x8, .f32⟩
  | .hbm, ⟨48, _⟩ => ⟨S8x8388608, .f32⟩
  | .hbm, ⟨49, _⟩ => ⟨S16384, .f32⟩
  | .hbm, ⟨50, _⟩ => ⟨S512x32, .f32⟩
  | .hbm, ⟨51, _⟩ => ⟨S131072x512, .f32⟩
  | .hbm, ⟨52, _⟩ => ⟨S131072x32, .f32⟩
  | .hbm, ⟨53, _⟩ => ⟨S32x131072, .f32⟩
  | .hbm, ⟨54, _⟩ => ⟨S16384x256, .f32⟩
  | .hbm, ⟨55, _⟩ => ⟨S256x16384, .f32⟩
  | .hbm, ⟨56, _⟩ => ⟨S256x16384, .f32⟩
  | .hbm, ⟨57, _⟩ => ⟨S1x16384, .f32⟩
  | .hbm, ⟨58, _⟩ => ⟨S256x16384, .f32⟩
  | .hbm, ⟨59, _⟩ => ⟨S256x16384, .f32⟩
  | .hbm, ⟨60, _⟩ => ⟨S256x4096, .f32⟩
  | .hbm, ⟨61, _⟩ => ⟨S256x4096, .f32⟩
  | .hbm, ⟨62, _⟩ => ⟨S256x4096, .f32⟩
  | .hbm, ⟨63, _⟩ => ⟨S256x4096, .f32⟩
  | .hbm, ⟨64, _⟩ => ⟨S_, .f32⟩
  | .hbm, ⟨65, _⟩ => ⟨S256x4096, .f32⟩
  | .hbm, ⟨66, _⟩ => ⟨S256x4096, .f32⟩
  | .hbm, ⟨67, _⟩ => ⟨S_, .f32⟩
  | .hbm, ⟨68, _⟩ => ⟨S256x4096, .f32⟩
  | .hbm, ⟨69, _⟩ => ⟨S256x4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S256x4096, .f32⟩
  | .hbm, ⟨74, _⟩ => ⟨S256x4096, .f32⟩
  | .hbm, ⟨75, _⟩ => ⟨S_, .f32⟩
  | .hbm, ⟨76, _⟩ => ⟨S256x4096, .f32⟩
  | .hbm, ⟨77, _⟩ => ⟨S256x4096, .f32⟩
  | .hbm, ⟨78, _⟩ => ⟨S_, .f32⟩
  | .hbm, ⟨79, _⟩ => ⟨S256x4096, .f32⟩
  | .hbm, ⟨80, _⟩ => ⟨S256x4096, .f32⟩
  | .hbm, ⟨81, _⟩ => ⟨S_, .f32⟩
  | .hbm, ⟨82, _⟩ => ⟨S256x4096, .f32⟩
  | .hbm, ⟨83, _⟩ => ⟨S256x4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S256x4096, .f32⟩
  | .hbm, ⟨88, _⟩ => ⟨S256x4096, .f32⟩
  | .hbm, ⟨89, _⟩ => ⟨S_, .f32⟩
  | .hbm, ⟨90, _⟩ => ⟨S256x4096, .f32⟩
  | .hbm, ⟨91, _⟩ => ⟨S256x4096, .f32⟩
  | .hbm, ⟨92, _⟩ => ⟨S256x4096, .f32⟩
  | .hbm, ⟨93, _⟩ => ⟨S256x4096, .f32⟩
  | .hbm, ⟨94, _⟩ => ⟨S256x4096, .f32⟩
  | .hbm, ⟨95, _⟩ => ⟨S256x4096, .f32⟩
  | .hbm, ⟨96, _⟩ => ⟨S_, .f32⟩
  | .hbm, ⟨97, _⟩ => ⟨S256x4096, .f32⟩
  | .hbm, ⟨98, _⟩ => ⟨S256x4096, .f32⟩
  | .hbm, ⟨99, _⟩ => ⟨S_, .f32⟩
  | .hbm, ⟨100, _⟩ => ⟨S256x4096, .f32⟩
  | .hbm, ⟨101, _⟩ => ⟨S256x4096, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S256x4096, .f32⟩
  | .hbm, ⟨106, _⟩ => ⟨S256x4096, .f32⟩
  | .hbm, ⟨107, _⟩ => ⟨S_, .f32⟩
  | .hbm, ⟨108, _⟩ => ⟨S256x4096, .f32⟩
  | .hbm, ⟨109, _⟩ => ⟨S256x4096, .f32⟩
  | .hbm, ⟨110, _⟩ => ⟨S256x4096, .f32⟩
  | .hbm, ⟨111, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst : Ref sig .tc := ⟨.hbm, 64, rfl⟩
abbrev main_v58 : Ref sig .tc := ⟨.hbm, 65, rfl⟩
abbrev main_v59 : Ref sig .tc := ⟨.hbm, 66, rfl⟩
abbrev main_cst_0 : Ref sig .tc := ⟨.hbm, 67, rfl⟩
abbrev main_v60 : Ref sig .tc := ⟨.hbm, 68, rfl⟩
abbrev main_v61 : Ref sig .tc := ⟨.hbm, 69, rfl⟩
abbrev main_cst_1 : Ref sig .tc := ⟨.hbm, 70, rfl⟩
abbrev main_cst_2 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v62 : Ref sig .tc := ⟨.hbm, 77, rfl⟩
abbrev main_cst_3 : Ref sig .tc := ⟨.hbm, 78, rfl⟩
abbrev main_v63 : Ref sig .tc := ⟨.hbm, 79, rfl⟩
abbrev main_v64 : Ref sig .tc := ⟨.hbm, 80, rfl⟩
abbrev main_cst_4 : Ref sig .tc := ⟨.hbm, 81, rfl⟩
abbrev main_v65 : Ref sig .tc := ⟨.hbm, 82, rfl⟩
abbrev main_v66 : Ref sig .tc := ⟨.hbm, 83, rfl⟩
abbrev main_cst_5 : Ref sig .tc := ⟨.hbm, 84, rfl⟩
abbrev main_cst_6 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_7 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_cst_9 : Ref sig .tc := ⟨.hbm, 102, rfl⟩
abbrev main_cst_10 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]

class Facts₀ : Prop where
  slices_S544768_S4096_0 : S544768.Slices ![0] S4096
  shapeCasts_S4096_S8x512 : S4096.ShapeCasts S8x512
  shapeCasts_S256x4096_S131072x8 : S256x4096.ShapeCasts S131072x8
  shapeCasts_S131072x512_S8388608x8 : S131072x512.ShapeCasts S8388608x8
  transposes_S8388608x8_S8x8388608_1_0 : S8388608x8.Transposes [1, 0] S8x8388608
  slices_S544768_S262144_4096 : S544768.Slices ![4096] S262144
  shapeCasts_S262144_S512x512 : S262144.ShapeCasts S512x512
  shapeCasts_S8x8388608_S131072x512 : S8x8388608.ShapeCasts S131072x512
  slices_S544768_S262144_266240 : S544768.Slices ![266240] S262144
  slices_S544768_S16384_528384 : S544768.Slices ![528384] S16384
  shapeCasts_S16384_S512x32 : S16384.ShapeCasts S512x32
  transposes_S131072x32_S32x131072_1_0 : S131072x32.Transposes [1, 0] S32x131072
  shapeCasts_S32x131072_S16384x256 : S32x131072.ShapeCasts S16384x256
  transposes_S16384x256_S256x16384_1_0 : S16384x256.Transposes [1, 0] S256x16384
  bcast_S16384_S1x16384_1 : S16384.BroadcastsInDim S1x16384 (![1] : Fin 1 → Fin S1x16384.rank)
  bcast_S1x16384_S256x16384_0_1 : S1x16384.BroadcastsInDim S256x16384 (![0, 1] : Fin 2 → Fin S256x16384.rank)
  slices_S256x16384_S256x4096_0_0 : S256x16384.Slices ![0, 0] S256x4096
  slices_S256x16384_S256x4096_0_4096 : S256x16384.Slices ![0, 4096] S256x4096
  slices_S256x16384_S256x4096_0_8192 : S256x16384.Slices ![0, 8192] S256x4096
  slices_S256x16384_S256x4096_0_12288 : S256x16384.Slices ![0, 12288] S256x4096
  bcast_S_S256x4096 : S_.BroadcastsInDim S256x4096 (![] : Fin 0 → Fin S256x4096.rank)
  dot_S131072x8_S8x512_S131072x512_1_0_0_1_n_n_wf : DotDims.WF S131072x8 S8x512 S131072x512 [1] [0] [0] [1] [] []
  dot_S131072x512_S512x512_S131072x512_1_0_0_1_n_n_wf : DotDims.WF S131072x512 S512x512 S131072x512 [1] [0] [0] [1] [] []
  dot_S131072x512_S512x32_S131072x32_1_0_0_1_n_n_wf : DotDims.WF S131072x512 S512x32 S131072x32 [1] [0] [0] [1] [] []

variable [Facts₀]

def dot_S131072x8_S8x512_S131072x512_1_0_0_1_n_n : DotDims S131072x8 S8x512 S131072x512 where
  lhsContracting := [1]
  rhsContracting := [0]
  lhsNonContracting := [0]
  rhsNonContracting := [1]
  lhsBatch := []
  rhsBatch := []
  wf := dot_S131072x8_S8x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x32_S131072x32_1_0_0_1_n_n : DotDims S131072x512 S512x32 S131072x32 where
  lhsContracting := [1]
  rhsContracting := [0]
  lhsNonContracting := [0]
  rhsNonContracting := [1]
  lhsBatch := []
  rhsBatch := []
  wf := dot_S131072x512_S512x32_S131072x32_1_0_0_1_n_n_wf

class Facts : Prop extends Facts₀ where

variable [Facts]
-- ==== Proof.Imports.lean ====
import proofs.«113918_j62294205661397_1_alg».proof.Proof.Gen.KernelIdeal.Value
import proofs.«113918_j62294205661397_1_alg».proof.Proof.Gen.ReferenceIdeal.Run
import proofs.«113918_j62294205661397_1_alg».proof.Proof.Gen.ReferenceIdeal.Read

/-! The generated value leg of the idealized kernel and the reference's run with its read-at-an-index lemmas, gathered under one name. -/
-- ==== Proof.TTDefs.lean ====
/-
  The tensor-train contraction, on matrices written as functions of two natural-number coordinates.

  A batch of rows `x[b, (i0, i1, i2, i3)]` is contracted, one input factor at a time from the last to the first, with
  four cores. Between two contractions the matrix is re-laid: the 512 result columns split as 64 × 8, the last
  eight become the leading axis (a row-major re-laying to rows of length 8, a transposition, and a row-major
  re-laying back to rows of length 512). After the last contraction the result is transposed twice around one more
  re-laying so that the batch is the leading axis again. Everything is a composition of three operations on
  matrices: a row-major re-laying `castN`, a transposition `transN` and a contraction `mm`.
-/
import Mathlib.Data.EReal.Basic
import Mathlib.Algebra.BigOperators.Fin

noncomputable section

namespace Cert.TT

open scoped BigOperators

/-- A matrix with rows of length `b`, re-laid row-major into rows of length `d`: the new entry `(p, q)` has row-major
    position `p * d + q`, which is entry `(· / b, · % b)` of the old matrix. -/
def castN (b d : ℕ) (N : ℕ → ℕ → EReal) : ℕ → ℕ → EReal :=
  fun p q => N ((p * d + q) / b) ((p * d + q) % b)

/-- The transposed matrix. -/
def transN (N : ℕ → ℕ → EReal) : ℕ → ℕ → EReal := fun p q => N q p

/-- Rows of `L` contracted with columns of `R` over a shared axis of length `k`. -/
def mm (k : ℕ) (L R : ℕ → ℕ → EReal) : ℕ → ℕ → EReal :=
  fun p q => ∑ c : Fin k, L p c.val * R c.val q

/-- The re-laying between two contractions: rows of 512 to rows of 8, transposed (rows of length `b1`), back to rows
    of 512. -/
def stageN (b1 : ℕ) (M : ℕ → ℕ → EReal) : ℕ → ℕ → EReal := castN b1 512 (transN (castN 512 8 M))

/-- The whole contraction of a batch `X` (rows of length 4096) with the cores `C3` (8 × 512), `C2`, `C1` (512 × 512) and
    `C0` (512 × 32). `B` is the batch size, `b1 = B * 32768` and `b2 = B * 512` the row lengths the transpositions leave. -/
def chainN (b1 b2 B : ℕ) (X C3 C2 C1 C0 : ℕ → ℕ → EReal) : ℕ → ℕ → EReal :=
  transN (castN b2 B (transN (mm 512 (stageN b1 (mm 512 (stageN b1 (mm 512 (stageN b1
    (mm 8 (castN 4096 8 X) C3)) C2)) C1)) C0)))

/-- The contraction of a batch of 8 rows. -/
abbrev chain8 := chainN 262144 4096 8

/-- The contraction of a batch of 256 rows. -/
abbrev chain256 := chainN 8388608 131072 256

end Cert.TT

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«113918_j62294205661397_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.LibRep.lean ====
/-
  Matrices and vectors of extended reals read through natural-number coordinates.

  A rank-2 array `v` "is" a function `N : ℕ → ℕ → EReal` when `v (p, q) = N p q` at every index of `v` (`Rep`); a rank-1
  array likewise (`Rep1`). The layout operations and the contractions carry this relation along: a row-major
  re-laying reads the entry with the same row-major position (`castN`), a transposition swaps the coordinates
  (`transN`), a rows-by-columns product into the zero accumulator — the vector unit's or the host's — is the sum over
  the shared axis (`mm`), a change of float format changes nothing, a slice of a vector shifts its coordinate.
  All extents are arbitrary.
-/
import Idealize.ShloMosaic.Lib.ValueIdx
import Idealize.ShloMosaic.Lib.Pipeline.Value
import Idealize.ShloMosaic.Lib.ValueLayout
import Idealize.ShloMosaic.PureOps.Ideal.Laws
import proofs.«113918_j62294205661397_1_alg».proof.Proof.TTDefs
import proofs.«113918_j62294205661397_1_alg».proof.Proof.LibPlainMatmul
import proofs.«113918_j62294205661397_1_alg».proof.Proof.LibHostDot

noncomputable section

namespace Cert.LibRep

open Idealize.ShloMosaic Idealize.ShloMosaic.ValueIdx Cert.TT Cert.LibPlainMatmul Cert.LibHostDot
open scoped BigOperators

/-- The matrix `v` is `N` on its index range. -/
def Rep {a b : ℕ} {φ : FTy} (v : FVec Ideal ⟨2, ![a, b]⟩ φ) (N : ℕ → ℕ → EReal) : Prop :=
  ∀ (p : Fin a) (q : Fin b), v (ix2 p q) = N p.val q.val

/-- The vector `v` is `N` on its index range. -/
def Rep1 {a : ℕ} {φ : FTy} (v : FVec Ideal ⟨1, ![a]⟩ φ) (N : ℕ → EReal) : Prop :=
  ∀ p : Fin a, v (ix1 p) = N p.val

/-- A matrix as a function of two natural numbers, zero outside its index range. -/
def toN2 {a b : ℕ} {φ : FTy} (v : FVec Ideal ⟨2, ![a, b]⟩ φ) : ℕ → ℕ → EReal :=
  fun p q => if h : p < a ∧ q < b then v (ix2 ⟨p, h.1⟩ ⟨q, h.2⟩) else 0

/-- A vector as a function of a natural number, zero outside its index range. -/
def toN1 {a : ℕ} {φ : FTy} (v : FVec Ideal ⟨1, ![a]⟩ φ) : ℕ → EReal :=
  fun p => if h : p < a then v (ix1 ⟨p, h⟩) else 0

theorem rep_toN2 {a b : ℕ} {φ : FTy} (v : FVec Ideal ⟨2, ![a, b]⟩ φ) : Rep v (toN2 v) := by
  intro p q
  unfold toN2
  rw [dif_pos ⟨p.isLt, q.isLt⟩]

theorem rep1_toN1 {a : ℕ} {φ : FTy} (v : FVec Ideal ⟨1, ![a]⟩ φ) : Rep1 v (toN1 v) := by
  intro p
  unfold toN1
  rw [dif_pos p.isLt]

theorem numel_two (a b : ℕ) : (⟨2, ![a, b]⟩ : Shape).numel = a * b := by
  simp [Shape.numel, Fin.prod_univ_two, Shape.size]

theorem numel_one (a : ℕ) : (⟨1, ![a]⟩ : Shape).numel = a := by
  simp [Shape.numel, Shape.size]

/-- A matrix re-laid row-major to another row length reads the entry with the same row-major position. -/
theorem rep_cast {a b c d : ℕ} {φ : FTy} (v : FVec Ideal ⟨2, ![a, b]⟩ φ)
    (h : (⟨2, ![a, b]⟩ : Shape).ShapeCasts ⟨2, ![c, d]⟩) (N : ℕ → ℕ → EReal) (hv : Rep v N) :
    Rep (shapeCast ⟨2, ![c, d]⟩ v h) (castN b d N) := by
  intro p q
  have hn : c * d = a * b := by
    have h' : (⟨2, ![c, d]⟩ : Shape).numel = (⟨2, ![a, b]⟩ : Shape).numel := h
    rwa [numel_two, numel_two] at h'
  have hf : p.val * d + q.val < c * d := by
    have hp := p.isLt; have hq := q.isLt
    calc p.val * d + q.val < p.val * d + d := by omega
      _ = (p.val + 1) * d := by ring
      _ ≤ c * d := Nat.mul_le_mul_right d (by omega)
  have hb : 0 < b := by
    rcases Nat.eq_zero_or_pos b with h0 | h0
    · rw [h0, Nat.mul_zero] at hn; omega
    · exact h0
  have h1 : (p.val * d + q.val) / b < a := by
    apply Nat.div_lt_of_lt_mul; rw [Nat.mul_comm b a, ← hn]; exact hf
  have h2 : (p.val * d + q.val) % b < b := Nat.mod_lt _ hb
  refine (shapeCast_apply v h (ix2 p q) (ix2 ⟨(p.val * d + q.val) / b, h1⟩ ⟨(p.val * d + q.val) % b, h2⟩) ?_).trans (hv _ _)
  rw [Shape.rowMajor_val_two, Shape.rowMajor_val_two]
  show (p.val * d + q.val) / b * b + (p.val * d + q.val) % b = p.val * d + q.val
  exact Nat.div_add_mod' _ _

/-- A transposed matrix reads the entry with the coordinates swapped. -/
theorem rep_trans {a b : ℕ} {φ : FTy} (v : FVec Ideal ⟨2, ![a, b]⟩ φ)
    (h : (⟨2, ![a, b]⟩ : Shape).Transposes [1, 0] ⟨2, ![b, a]⟩) (N : ℕ → ℕ → EReal) (hv : Rep v N) :
    Rep (transpose ⟨2, ![b, a]⟩ [1, 0] v h) (transN N) :=
  fun p q => (transpose_ix2_apply v h p q).trans (hv q p)

/-- Over the extended reals a narrowing of the float format changes no entry. -/
theorem rep_truncf {a b : ℕ} {φ ψ : FTy} (v : FVec Ideal ⟨2, ![a, b]⟩ φ) (h : ψ.bits < φ.bits)
    (N : ℕ → ℕ → EReal) (hv : Rep v N) : Rep (truncf ψ v h) N := fun p q => hv p q

/-- Over the extended reals a widening of the float format changes no entry. -/
theorem rep_extf {a b : ℕ} {φ ψ : FTy} (v : FVec Ideal ⟨2, ![a, b]⟩ φ) (h : φ.bits < ψ.bits)
    (N : ℕ → ℕ → EReal) (hv : Rep v N) : Rep (extf ψ v h) N := fun p q => hv p q

/-- A rows-by-columns product into the zero accumulator is the sum over the shared axis. -/
theorem rep_matmul {m k n : ℕ}
    (wf : DotDims.WF (⟨2, ![m, k]⟩ : Shape) ⟨2, ![k, n]⟩ ⟨2, ![m, n]⟩ [1] [0] [0] [1] [] [])
    {φ₁ φ₂ : FTy} (l : FVec Ideal ⟨2, ![m, k]⟩ φ₁) (r : FVec Ideal ⟨2, ![k, n]⟩ φ₂)
    (L R : ℕ → ℕ → EReal) (hl : Rep l L) (hr : Rep r R) :
    Rep (FloatOps.matmul (plainDims wf) none l r (constant (F := Ideal) ⟨2, ![m, n]⟩ .f32 0x00000000#32)) (mm k L R) :=
  fun p q => (matmul_zero_plain wf l r p q).trans (Finset.sum_congr rfl fun c _ => by rw [hl p c, hr c q])

/-- The host's rows-by-columns product is the same sum. -/
theorem rep_dot {m k n : ℕ}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (L R : ℕ → ℕ → EReal) (hl : Rep l L) (hr : Rep r R) :
    Rep (FloatOps.dotGeneral (plainDims wf) none sched l r) (mm k L R) :=
  fun p q => (dotGeneral_plain wf sched l r p q).trans (Finset.sum_congr rfl fun c _ => by rw [hl p c, hr c q])

/-- A slice of a vector from offset `o` reads the entry `o` places further. -/
theorem rep1_slice {n m : ℕ} (o : ℕ) {φ : FTy} (v : FVec Ideal ⟨1, ![n]⟩ φ)
    (h : (⟨1, ![n]⟩ : Shape).Slices ![o] ⟨1, ![m]⟩) (N : ℕ → EReal) (hv : Rep1 v N) :
    Rep1 (extractStridedSlice ⟨1, ![m]⟩ ![o] v h) (fun p => N (o + p)) := by
  intro p
  have hb : o + p.val < n := by
    have h0 : o + m ≤ n := h.2 0
    have := p.isLt; omega
  exact (extractStridedSlice_apply ![o] v h (ix1 p) (ix1 ⟨o + p.val, hb⟩)
    (fun a => match a with | ⟨0, _⟩ => rfl)).trans (hv _)

/-- A vector laid out as a matrix with rows of length `d` reads the entry at the row-major position. -/
theorem rep_cast12 {n c d : ℕ} {φ : FTy} (v : FVec Ideal ⟨1, ![n]⟩ φ)
    (h : (⟨1, ![n]⟩ : Shape).ShapeCasts ⟨2, ![c, d]⟩) (N : ℕ → EReal) (hv : Rep1 v N) :
    Rep (shapeCast ⟨2, ![c, d]⟩ v h) (fun p q => N (p * d + q)) := by
  intro p q
  have hn : c * d = n := by
    have h' : (⟨2, ![c, d]⟩ : Shape).numel = (⟨1, ![n]⟩ : Shape).numel := h
    rwa [numel_two, numel_one] at h'
  have hf : p.val * d + q.val < n := by
    have hp := p.isLt; have hq := q.isLt
    calc p.val * d + q.val < p.val * d + d := by omega
      _ = (p.val + 1) * d := by ring
      _ ≤ c * d := Nat.mul_le_mul_right d (by omega)
      _ = n := hn
  refine (shapeCast_apply v h (ix2 p q) (ix1 ⟨p.val * d + q.val, hf⟩) ?_).trans (hv _)
  rw [Shape.rowMajor_val_one, Shape.rowMajor_val_two]
  rfl

/-- A same-shape cast changes nothing. -/
theorem rep_cast_self {a b : ℕ} {φ : FTy} (v : FVec Ideal ⟨2, ![a, b]⟩ φ)
    (h : (⟨2, ![a, b]⟩ : Shape).ShapeCasts ⟨2, ![a, b]⟩) (N : ℕ → ℕ → EReal) (hv : Rep v N) :
    Rep (shapeCast ⟨2, ![a, b]⟩ v h) N := by
  intro p q
  refine (shapeCast_apply v h (ix2 p q) (ix2 p q) rfl).trans (hv p q)

end Cert.LibRep

end
-- ==== Proof.Spec.lean ====
/-
  The cell update of the recurrent layer, on matrices written as functions of two natural-number coordinates.

  The pre-activation `Z[b, n]`, `n < 16384`, is the sum of the two tensor-train contractions (of the input and of the
  previous hidden state) and the bias. Its four column blocks of width 4096 are the input, forget, candidate and
  output pre-activations. With the hard sigmoid `hsig z = min 1 (max 0 (0.2 z + 0.5))` (the constants are the
  float words the programs carry) the new cell state is `hsig(forget) · c + hsig(input) · tanh(candidate)` and the
  new hidden state is `hsig(output) · tanh(new cell)`.
  The four cores of a contraction are consecutive stretches of one flat parameter vector, each laid out row-major.
-/
import Idealize.ShloMosaic.PureOps.Ideal
import proofs.«113918_j62294205661397_1_alg».proof.Proof.TTDefs

noncomputable section

namespace Cert.Spec

open Idealize.ShloMosaic Cert.TT

/-- The hard sigmoid `min 1 (max 0 (0.2 z + 0.5))`, its four constants as the float words read as extended reals. -/
def hsig (z : EReal) : EReal :=
  min (Ideal.ofBits .f32 0x3F800000#32)
    (max (Ideal.ofBits .f32 0x00000000#32) (Ideal.ofBits .f32 0x3E4CCCCD#32 * z + Ideal.ofBits .f32 0x3F000000#32))

/-- The pre-activation: the two contractions and the bias. -/
def preN (ZW ZU : ℕ → ℕ → EReal) (Bi : ℕ → EReal) : ℕ → ℕ → EReal := fun b n => ZW b n + ZU b n + Bi n

/-- The new cell state from the pre-activation `Z` and the previous cell state `Cp`. -/
def cellN (Z Cp : ℕ → ℕ → EReal) : ℕ → ℕ → EReal :=
  fun b j => hsig (Z b (4096 + j)) * Cp b j + hsig (Z b j) * Ideal.tanh (Z b (8192 + j))

/-- The new hidden state. -/
def hidN (Z Cp : ℕ → ℕ → EReal) : ℕ → ℕ → EReal :=
  fun b j => hsig (Z b (12288 + j)) * Ideal.tanh (cellN Z Cp b j)

/-- The core contracted first (8 × 512): the first 4096 parameters. -/
def core3 (W : ℕ → EReal) : ℕ → ℕ → EReal := fun p q => W (0 + (p * 512 + q))
/-- The second core (512 × 512): the next 262144 parameters. -/
def core2 (W : ℕ → EReal) : ℕ → ℕ → EReal := fun p q => W (4096 + (p * 512 + q))
/-- The third core (512 × 512). -/
def core1 (W : ℕ → EReal) : ℕ → ℕ → EReal := fun p q => W (266240 + (p * 512 + q))
/-- The core contracted last (512 × 32): the last 16384 parameters. -/
def core0 (W : ℕ → EReal) : ℕ → ℕ → EReal := fun p q => W (528384 + (p * 32 + q))

/-- The contraction of a batch of 8 rows with the cores cut from the parameter vector `W`. -/
def tt8 (X : ℕ → ℕ → EReal) (W : ℕ → EReal) : ℕ → ℕ → EReal := chain8 X (core3 W) (core2 W) (core1 W) (core0 W)
/-- The contraction of a batch of 256 rows with the cores cut from the parameter vector `W`. -/
def tt256 (X : ℕ → ℕ → EReal) (W : ℕ → EReal) : ℕ → ℕ → EReal := chain256 X (core3 W) (core2 W) (core1 W) (core0 W)

end Cert.Spec

end
-- ==== Proof.TTTile.lean ====
/-
  Rows of a batch are contracted independently.

  The tensor-train contraction of a batch treats each row of the batch on its own: row `b` of the contraction of the
  eight rows `8 t, …, 8 t + 7` is row `8 t + b` of the contraction of all 256 rows. Both sides are the same nested
  sums over the same core entries; only the row number of the intermediate matrices differs. At each stage the
  row `r < 4096` of the small batch's matrix corresponds to a row of the large batch's matrix:

    after the first contraction   `4096 t + r`
    after the second              `(r / 512) * 16384 + 512 t + r % 512`
    after the third               `(r / 512) * 16384 + (r % 512 / 64) * 2048 + 64 t + r % 64`
    after the fourth              `(r / 512) * 16384 + (r % 512 / 64) * 2048 + (r % 64 / 8) * 256 + 8 t + r % 8`

  (each re-laying moves three more bits of the row number in front of the batch index). No algebra of the
  entries is used: only congruence of sums and arithmetic of quotients and remainders by numerals.
-/
import proofs.«113918_j62294205661397_1_alg».proof.Proof.TTDefs

noncomputable section

namespace Cert.TT

open scoped BigOperators

/-- A contraction only reads one row of its left factor: equal rows give equal results. -/
theorem mm_congr (k : ℕ) (L L' R : ℕ → ℕ → EReal) (p p' q : ℕ)
    (h : ∀ c : Fin k, L p c.val = L' p' c.val) : mm k L R p q = mm k L' R p' q := by
  unfold mm
  exact Finset.sum_congr rfl fun c _ => by rw [h c]

/-- Entry `(r, k)` of the re-laid matrix of a batch of 8, for `r < 4096` and `k < 512`. -/
theorem stage8_apply (M : ℕ → ℕ → EReal) (r k : ℕ) (hr : r < 4096) (hk : k < 512) :
    stageN 262144 M r k = M (r % 512 * 8 + k / 64) (k % 64 * 8 + r / 512) := by
  simp only [stageN, castN, transN]
  have a1 : (r * 512 + k) % 262144 = r % 512 * 512 + k := by omega
  have a2 : (r * 512 + k) / 262144 = r / 512 := by omega
  rw [a1, a2]
  have e1 : ((r % 512 * 512 + k) * 8 + r / 512) / 512 = r % 512 * 8 + k / 64 := by omega
  have e2 : ((r % 512 * 512 + k) * 8 + r / 512) % 512 = k % 64 * 8 + r / 512 := by omega
  rw [e1, e2]

/-- Entry `(s, k)` of the re-laid matrix of a batch of 256, for `s < 131072` and `k < 512`. -/
theorem stage256_apply (M : ℕ → ℕ → EReal) (s k : ℕ) (hs : s < 131072) (hk : k < 512) :
    stageN 8388608 M s k = M (s % 16384 * 8 + k / 64) (k % 64 * 8 + s / 16384) := by
  simp only [stageN, castN, transN]
  have a1 : (s * 512 + k) % 8388608 = s % 16384 * 512 + k := by omega
  have a2 : (s * 512 + k) / 8388608 = s / 16384 := by omega
  rw [a1, a2]
  have e1 : ((s % 16384 * 512 + k) * 8 + s / 16384) / 512 = s % 16384 * 8 + k / 64 := by omega
  have e2 : ((s % 16384 * 512 + k) * 8 + s / 16384) % 512 = k % 64 * 8 + s / 16384 := by omega
  rw [e1, e2]

/-- The first contraction: row `r` of the small batch's matrix is row `4096 t + r` of the large batch's. -/
theorem base_rel (X C3 : ℕ → ℕ → EReal) (t : ℕ) (r : ℕ) (q : ℕ) :
    mm 8 (castN 4096 8 (fun p q => X (8 * t + p) q)) C3 r q = mm 8 (castN 4096 8 X) C3 (4096 * t + r) q := by
  apply mm_congr
  intro c
  simp only [castN]
  have e1 : 8 * t + (r * 8 + c.val) / 4096 = ((4096 * t + r) * 8 + c.val) / 4096 := by omega
  have e2 : (r * 8 + c.val) % 4096 = ((4096 * t + r) * 8 + c.val) % 4096 := by omega
  rw [e1, e2]

/-- One re-laying followed by one contraction carries a row relation `φ` to the next row relation `ψ`. -/
theorem step_rel (φ ψ : ℕ → ℕ) (M M' C : ℕ → ℕ → EReal)
    (hM : ∀ r, r < 4096 → ∀ q, M r q = M' (φ r) q)
    (hφ : ∀ r k, r < 4096 → k < 512 → φ (r % 512 * 8 + k / 64) = ψ r % 16384 * 8 + k / 64)
    (hψ : ∀ r, r < 4096 → r / 512 = ψ r / 16384)
    (hlt : ∀ r, r < 4096 → ψ r < 131072) :
    ∀ r, r < 4096 → ∀ q, mm 512 (stageN 262144 M) C r q = mm 512 (stageN 8388608 M') C (ψ r) q := by
  intro r hr q
  apply mm_congr
  intro c
  have hc := c.isLt
  rw [stage8_apply M r c.val hr hc, stage256_apply M' (ψ r) c.val (hlt r hr) hc,
    hM _ (by omega), hφ r c.val hr hc, hψ r hr]

/-- Row `b` of the contraction of the rows `8 t, …, 8 t + 7` is row `8 t + b` of the contraction of all 256 rows. -/
theorem chain_tile (X C3 C2 C1 C0 : ℕ → ℕ → EReal) (t b n : ℕ) (ht : t < 32) (hb : b < 8) (hn : n < 16384) :
    chain8 (fun p q => X (8 * t + p) q) C3 C2 C1 C0 b n = chain256 X C3 C2 C1 C0 (8 * t + b) n := by
  have h1 : ∀ r, r < 4096 → ∀ q,
      mm 8 (castN 4096 8 (fun p q => X (8 * t + p) q)) C3 r q
        = mm 8 (castN 4096 8 X) C3 ((fun r => 4096 * t + r) r) q :=
    fun r _ q => base_rel X C3 t r q
  have h2 := step_rel (fun r => 4096 * t + r) (fun r => r / 512 * 16384 + 512 * t + r % 512) _ _ C2 h1
    (by intro r k hr hk; show _ = _; omega) (by intro r hr; show _ = _; omega) (by intro r hr; show _ < _; omega)
  have h3 := step_rel _ (fun r => r / 512 * 16384 + r % 512 / 64 * 2048 + 64 * t + r % 64) _ _ C1 h2
    (by intro r k hr hk; show _ = _; omega) (by intro r hr; show _ = _; omega) (by intro r hr; show _ < _; omega)
  have h4 := step_rel _
    (fun r => r / 512 * 16384 + r % 512 / 64 * 2048 + r % 64 / 8 * 256 + 8 * t + r % 8) _ _ C0 h3
    (by intro r k hr hk; show _ = _; omega) (by intro r hr; show _ = _; omega) (by intro r hr; show _ < _; omega)
  show chainN 262144 4096 8 _ C3 C2 C1 C0 b n = chainN 8388608 131072 256 X C3 C2 C1 C0 (8 * t + b) n
  simp only [chainN, transN, castN]
  have e1 : (n * 8 + b) % 4096 = n % 512 * 8 + b := by omega
  have e2 : (n * 8 + b) / 4096 = n / 512 := by omega
  have e3 : (n * 256 + (8 * t + b)) % 131072 = n % 512 * 256 + 8 * t + b := by omega
  have e4 : (n * 256 + (8 * t + b)) / 131072 = n / 512 := by omega
  rw [e1, e2, e3, e4]
  refine (h4 (n % 512 * 8 + b) (by omega) (n / 512)).trans ?_
  have e5 : (n % 512 * 8 + b) / 512 * 16384 + (n % 512 * 8 + b) % 512 / 64 * 2048
      + (n % 512 * 8 + b) % 64 / 8 * 256 + 8 * t + (n % 512 * 8 + b) % 8 = n % 512 * 256 + 8 * t + b := by
    omega
  rw [e5]

end Cert.TT

end
-- ==== Proof.KernelArrays.lean ====
import proofs.«113918_j62294205661397_1_alg».proof.Proof.Imports
import proofs.«113918_j62294205661397_1_alg».proof.Proof.LibRep
import proofs.«113918_j62294205661397_1_alg».proof.Proof.Spec
import proofs.«113918_j62294205661397_1_alg».proof.Proof.TTTile
import Idealize.ShloMosaic.Lib.StableHlo.Run

noncomputable section

namespace Cert.KVal

open Cert.KernelIdeal Cert.KernelIdeal.Gen Idealize.ShloMosaic Idealize.ShloMosaic.TcCoe Idealize.SL.Sem
open Idealize.ShloMosaic.ValueIdx Cert.TT Cert.Spec Cert.LibRep
open Idealize.ShloMosaic.Pipeline (Dat)

variable (m : (ℓ : Loc nD τ sig) → Buf (Elt Ideal) ℓ) (ρ : Dev nD → PrngReg)

/-!
  The arrays the launched region finds, and its blocks, read through natural-number coordinates.

  Before the region the host cuts each flat parameter vector into four stretches, lays each out row-major as a
  matrix and narrows its float format (which changes nothing over the extended reals): these are the four cores of
  a contraction. The bias vector becomes one row. The region's grid has 32 points; at point t the input, hidden and
  cell windows hold rows 8t … 8t+7 of their arrays, and every other input window holds its whole array.
-/

theorem hz : (![0, 0] : Fin 2 → Nat) = fun _ => 0 := funext fun a => by fin_cases a <;> rfl

/-- The index maps of the row-tiled windows, decided over the 32 grid points: block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The index maps of the whole-array windows, decided over the 32 grid points: block (0, 0). -/
theorem idx_facts_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## The blocks -/

/-- The block of the input at point t is rows 8t … 8t+7 of the input. -/
theorem blk0_rep (c : Dev nD) (t : Fin cfg0.N) (X : ℕ → ℕ → EReal)
    (hX : Rep (a := 256) (b := 4096) (φ := .f32) (V m c main_arg0) X) :
    Rep (a := 8) (b := 4096) (φ := .f32) (iblk m c 0 t) (fun p q => X (8 * t.val + p) q) := by
  intro p q
  obtain ⟨e00, e01, e10, e11, e20, e21, -⟩ := idx_facts t
  have ht : t.val < 32 := t.isLt
  show V m c main_arg0 (((cfg0.win 0).blk t).view.emb (ix2 p q)) = _
  have h : ((cfg0.win 0).blk t).view.emb (ix2 p q) = ix2 (⟨8 * t.val + p.val, by omega⟩ : Fin 256) (⟨q.val, q.isLt⟩ : Fin 4096) := by
    funext a; apply Fin.ext
    match a with
    | ⟨0, _⟩ => show win0_0.index t (0 : Fin 2) * 8 + 1 * p.val = 8 * t.val + p.val; omega
    | ⟨1, _⟩ => show win0_0.index t (1 : Fin 2) * 4096 + 1 * q.val = q.val; omega
  rw [h]; exact hX _ _

/-- The block of the previous hidden state at point t is its rows 8t … 8t+7. -/
theorem blk1_rep (c : Dev nD) (t : Fin cfg0.N) (H : ℕ → ℕ → EReal)
    (hH : Rep (a := 256) (b := 4096) (φ := .f32) (V m c main_arg1) H) :
    Rep (a := 8) (b := 4096) (φ := .f32) (iblk m c 1 t) (fun p q => H (8 * t.val + p) q) := by
  intro p q
  obtain ⟨e00, e01, e10, e11, e20, e21, -⟩ := idx_facts t
  have ht : t.val < 32 := t.isLt
  show V m c main_arg1 (((cfg0.win 1).blk t).view.emb (ix2 p q)) = _
  have h : ((cfg0.win 1).blk t).view.emb (ix2 p q) = ix2 (⟨8 * t.val + p.val, by omega⟩ : Fin 256) (⟨q.val, q.isLt⟩ : Fin 4096) := by
    funext a; apply Fin.ext
    match a with
    | ⟨0, _⟩ => show win0_1.index t (0 : Fin 2) * 8 + 1 * p.val = 8 * t.val + p.val; omega
    | ⟨1, _⟩ => show win0_1.index t (1 : Fin 2) * 4096 + 1 * q.val = q.val; omega
  rw [h]; exact hH _ _

/-- The block of the previous cell state at point t is its rows 8t … 8t+7. -/
theorem blk2_rep (c : Dev nD) (t : Fin cfg0.N) (Cp : ℕ → ℕ → EReal)
    (hCp : Rep (a := 256) (b := 4096) (φ := .f32) (V m c main_arg2) Cp) :
    Rep (a := 8) (b := 4096) (φ := .f32) (iblk m c 2 t) (fun p q => Cp (8 * t.val + p) q) := by
  intro p q
  obtain ⟨e00, e01, e10, e11, e20, e21, -⟩ := idx_facts t
  have ht : t.val < 32 := t.isLt
  show V m c main_arg2 (((cfg0.win 2).blk t).view.emb (ix2 p q)) = _
  have h : ((cfg0.win 2).blk t).view.emb (ix2 p q) = ix2 (⟨8 * t.val + p.val, by omega⟩ : Fin 256) (⟨q.val, q.isLt⟩ : Fin 4096) := by
    funext a; apply Fin.ext
    match a with
    | ⟨0, _⟩ => show win0_2.index t (0 : Fin 2) * 8 + 1 * p.val = 8 * t.val + p.val; omega
    | ⟨1, _⟩ => show win0_2.index t (1 : Fin 2) * 4096 + 1 * q.val = q.val; omega
  rw [h]; exact hCp _ _

/-- This window's block is its whole array at every point. -/
theorem blk3_rep (c : Dev nD) (t : Fin cfg0.N) (N : ℕ → ℕ → EReal)
    (hN : Rep (a := 1) (b := 16384) (φ := .f32) (V m c main_v24) N) :
    Rep (a := 1) (b := 16384) (φ := .f32) (iblk m c 3 t) N := by
  intro p q
  obtain ⟨e30, e31, e40, e41, e50, e51, e60, e61, e70, e71, e80, e81, e90, e91, e100, e101, e110, e111⟩ := idx_facts_whole t
  show V m c main_v24 (((cfg0.win 3).blk t).view.emb (ix2 p q)) = _
  have h : ((cfg0.win 3).blk t).view.emb (ix2 p q) = ix2 p q := by
    funext a; apply Fin.ext
    match a with
    | ⟨0, _⟩ => show win0_3.index t (0 : Fin 2) * 1 + 1 * p.val = p.val; omega
    | ⟨1, _⟩ => show win0_3.index t (1 : Fin 2) * 16384 + 1 * q.val = q.val; omega
  rw [h]; exact hN p q

/-- This window's block is its whole array at every point. -/
theorem blk4_rep (c : Dev nD) (t : Fin cfg0.N) (N : ℕ → ℕ → EReal)
    (hN : Rep (a := 8) (b := 512) (φ := .bf16) (V m c main_v2) N) :
    Rep (a := 8) (b := 512) (φ := .bf16) (iblk m c 4 t) N := by
  intro p q
  obtain ⟨e30, e31, e40, e41, e50, e51, e60, e61, e70, e71, e80, e81, e90, e91, e100, e101, e110, e111⟩ := idx_facts_whole t
  show V m c main_v2 (((cfg0.win 4).blk t).view.emb (ix2 p q)) = _
  have h : ((cfg0.win 4).blk t).view.emb (ix2 p q) = ix2 p q := by
    funext a; apply Fin.ext
    match a with
    | ⟨0, _⟩ => show win0_4.index t (0 : Fin 2) * 8 + 1 * p.val = p.val; omega
    | ⟨1, _⟩ => show win0_4.index t (1 : Fin 2) * 512 + 1 * q.val = q.val; omega
  rw [h]; exact hN p q

/-- This window's block is its whole array at every point. -/
theorem blk5_rep (c : Dev nD) (t : Fin cfg0.N) (N : ℕ → ℕ → EReal)
    (hN : Rep (a := 512) (b := 512) (φ := .bf16) (V m c main_v5) N) :
    Rep (a := 512) (b := 512) (φ := .bf16) (iblk m c 5 t) N := by
  intro p q
  obtain ⟨e30, e31, e40, e41, e50, e51, e60, e61, e70, e71, e80, e81, e90, e91, e100, e101, e110, e111⟩ := idx_facts_whole t
  show V m c main_v5 (((cfg0.win 5).blk t).view.emb (ix2 p q)) = _
  have h : ((cfg0.win 5).blk t).view.emb (ix2 p q) = ix2 p q := by
    funext a; apply Fin.ext
    match a with
    | ⟨0, _⟩ => show win0_5.index t (0 : Fin 2) * 512 + 1 * p.val = p.val; omega
    | ⟨1, _⟩ => show win0_5.index t (1 : Fin 2) * 512 + 1 * q.val = q.val; omega
  rw [h]; exact hN p q

/-- This window's block is its whole array at every point. -/
theorem blk6_rep (c : Dev nD) (t : Fin cfg0.N) (N : ℕ → ℕ → EReal)
    (hN : Rep (a := 512) (b := 512) (φ := .bf16) (V m c main_v8) N) :
    Rep (a := 512) (b := 512) (φ := .bf16) (iblk m c 6 t) N := by
  intro p q
  obtain ⟨e30, e31, e40, e41, e50, e51, e60, e61, e70, e71, e80, e81, e90, e91, e100, e101, e110, e111⟩ := idx_facts_whole t
  show V m c main_v8 (((cfg0.win 6).blk t).view.emb (ix2 p q)) = _
  have h : ((cfg0.win 6).blk t).view.emb (ix2 p q) = ix2 p q := by
    funext a; apply Fin.ext
    match a with
    | ⟨0, _⟩ => show win0_6.index t (0 : Fin 2) * 512 + 1 * p.val = p.val; omega
    | ⟨1, _⟩ => show win0_6.index t (1 : Fin 2) * 512 + 1 * q.val = q.val; omega
  rw [h]; exact hN p q

/-- This window's block is its whole array at every point. -/
theorem blk7_rep (c : Dev nD) (t : Fin cfg0.N) (N : ℕ → ℕ → EReal)
    (hN : Rep (a := 512) (b := 32) (φ := .bf16) (V m c main_v11) N) :
    Rep (a := 512) (b := 32) (φ := .bf16) (iblk m c 7 t) N := by
  intro p q
  obtain ⟨e30, e31, e40, e41, e50, e51, e60, e61, e70, e71, e80, e81, e90, e91, e100, e101, e110, e111⟩ := idx_facts_whole t
  show V m c main_v11 (((cfg0.win 7).blk t).view.emb (ix2 p q)) = _
  have h : ((cfg0.win 7).blk t).view.emb (ix2 p q) = ix2 p q := by
    funext a; apply Fin.ext
    match a with
    | ⟨0, _⟩ => show win0_7.index t (0 : Fin 2) * 512 + 1 * p.val = p.val; omega
    | ⟨1, _⟩ => show win0_7.index t (1 : Fin 2) * 32 + 1 * q.val = q.val; omega
  rw [h]; exact hN p q

/-- This window's block is its whole array at every point. -/
theorem blk8_rep (c : Dev nD) (t : Fin cfg0.N) (N : ℕ → ℕ → EReal)
    (hN : Rep (a := 8) (b := 512) (φ := .bf16) (V m c main_v14) N) :
    Rep (a := 8) (b := 512) (φ := .bf16) (iblk m c 8 t) N := by
  intro p q
  obtain ⟨e30, e31, e40, e41, e50, e51, e60, e61, e70, e71, e80, e81, e90, e91, e100, e101, e110, e111⟩ := idx_facts_whole t
  show V m c main_v14 (((cfg0.win 8).blk t).view.emb (ix2 p q)) = _
  have h : ((cfg0.win 8).blk t).view.emb (ix2 p q) = ix2 p q := by
    funext a; apply Fin.ext
    match a with
    | ⟨0, _⟩ => show win0_8.index t (0 : Fin 2) * 8 + 1 * p.val = p.val; omega
    | ⟨1, _⟩ => show win0_8.index t (1 : Fin 2) * 512 + 1 * q.val = q.val; omega
  rw [h]; exact hN p q

/-- This window's block is its whole array at every point. -/
theorem blk9_rep (c : Dev nD) (t : Fin cfg0.N) (N : ℕ → ℕ → EReal)
    (hN : Rep (a := 512) (b := 512) (φ := .bf16) (V m c main_v17) N) :
    Rep (a := 512) (b := 512) (φ := .bf16) (iblk m c 9 t) N := by
  intro p q
  obtain ⟨e30, e31, e40, e41, e50, e51, e60, e61, e70, e71, e80, e81, e90, e91, e100, e101, e110, e111⟩ := idx_facts_whole t
  show V m c main_v17 (((cfg0.win 9).blk t).view.emb (ix2 p q)) = _
  have h : ((cfg0.win 9).blk t).view.emb (ix2 p q) = ix2 p q := by
    funext a; apply Fin.ext
    match a with
    | ⟨0, _⟩ => show win0_9.index t (0 : Fin 2) * 512 + 1 * p.val = p.val; omega
    | ⟨1, _⟩ => show win0_9.index t (1 : Fin 2) * 512 + 1 * q.val = q.val; omega
  rw [h]; exact hN p q

/-- This window's block is its whole array at every point. -/
theorem blk10_rep (c : Dev nD) (t : Fin cfg0.N) (N : ℕ → ℕ → EReal)
    (hN : Rep (a := 512) (b := 512) (φ := .bf16) (V m c main_v20) N) :
    Rep (a := 512) (b := 512) (φ := .bf16) (iblk m c 10 t) N := by
  intro p q
  obtain ⟨e30, e31, e40, e41, e50, e51, e60, e61, e70, e71, e80, e81, e90, e91, e100, e101, e110, e111⟩ := idx_facts_whole t
  show V m c main_v20 (((cfg0.win 10).blk t).view.emb (ix2 p q)) = _
  have h : ((cfg0.win 10).blk t).view.emb (ix2 p q) = ix2 p q := by
    funext a; apply Fin.ext
    match a with
    | ⟨0, _⟩ => show win0_10.index t (0 : Fin 2) * 512 + 1 * p.val = p.val; omega
    | ⟨1, _⟩ => show win0_10.index t (1 : Fin 2) * 512 + 1 * q.val = q.val; omega
  rw [h]; exact hN p q

/-- This window's block is its whole array at every point. -/
theorem blk11_rep (c : Dev nD) (t : Fin cfg0.N) (N : ℕ → ℕ → EReal)
    (hN : Rep (a := 512) (b := 32) (φ := .bf16) (V m c main_v23) N) :
    Rep (a := 512) (b := 32) (φ := .bf16) (iblk m c 11 t) N := by
  intro p q
  obtain ⟨e30, e31, e40, e41, e50, e51, e60, e61, e70, e71, e80, e81, e90, e91, e100, e101, e110, e111⟩ := idx_facts_whole t
  show V m c main_v23 (((cfg0.win 11).blk t).view.emb (ix2 p q)) = _
  have h : ((cfg0.win 11).blk t).view.emb (ix2 p q) = ix2 p q := by
    funext a; apply Fin.ext
    match a with
    | ⟨0, _⟩ => show win0_11.index t (0 : Fin 2) * 512 + 1 * p.val = p.val; omega
    | ⟨1, _⟩ => show win0_11.index t (1 : Fin 2) * 32 + 1 * q.val = q.val; omega
  rw [h]; exact hN p q

/-! ## The arrays the host prepares -/

/-- The array the region finds: a stretch of the flat parameter vector laid out row-major, its float format narrowed. -/
theorem arr_main_v2 (c : Dev nD) (W : ℕ → EReal)
    (hW : Rep1 (a := 544768) (φ := .f32) (m ((c : Thread nD τ).loc main_arg3)) W) :
    Rep (a := 8) (b := 512) (φ := .bf16) (V m c main_v2) (core3 W) := by
  have e : @Eq (S8x512.Idx → EReal) (V m c main_v2)
      (truncf (F := Ideal) .bf16 (shapeCast S8x512 (extractStridedSlice S4096 ![0] (show S544768.Idx → EReal from m ((c : Thread nD τ).loc main_arg3)) slices_S544768_S4096_0) shapeCasts_S4096_S8x512) bitsLt_bf16_f32) := by
    dsimp only [Gen.V, Gen.hostOps0]; after_results; rfl
  intro p q
  rw [e]
  exact rep_truncf _ bitsLt_bf16_f32 _ (rep_cast12 _ shapeCasts_S4096_S8x512 _ (rep1_slice 0 _ slices_S544768_S4096_0 W hW)) p q

/-- The array the region finds: a stretch of the flat parameter vector laid out row-major, its float format narrowed. -/
theorem arr_main_v5 (c : Dev nD) (W : ℕ → EReal)
    (hW : Rep1 (a := 544768) (φ := .f32) (m ((c : Thread nD τ).loc main_arg3)) W) :
    Rep (a := 512) (b := 512) (φ := .bf16) (V m c main_v5) (core2 W) := by
  have e : @Eq (S512x512.Idx → EReal) (V m c main_v5)
      (truncf (F := Ideal) .bf16 (shapeCast S512x512 (extractStridedSlice S262144 ![4096] (show S544768.Idx → EReal from m ((c : Thread nD τ).loc main_arg3)) slices_S544768_S262144_4096) shapeCasts_S262144_S512x512) bitsLt_bf16_f32) := by
    dsimp only [Gen.V, Gen.hostOps0]; after_results; rfl
  intro p q
  rw [e]
  exact rep_truncf _ bitsLt_bf16_f32 _ (rep_cast12 _ shapeCasts_S262144_S512x512 _ (rep1_slice 4096 _ slices_S544768_S262144_4096 W hW)) p q

/-- The array the region finds: a stretch of the flat parameter vector laid out row-major, its float format narrowed. -/
theorem arr_main_v8 (c : Dev nD) (W : ℕ → EReal)
    (hW : Rep1 (a := 544768) (φ := .f32) (m ((c : Thread nD τ).loc main_arg3)) W) :
    Rep (a := 512) (b := 512) (φ := .bf16) (V m c main_v8) (core1 W) := by
  have e : @Eq (S512x512.Idx → EReal) (V m c main_v8)
      (truncf (F := Ideal) .bf16 (shapeCast S512x512 (extractStridedSlice S262144 ![266240] (show S544768.Idx → EReal from m ((c : Thread nD τ).loc main_arg3)) slices_S544768_S262144_266240) shapeCasts_S262144_S512x512) bitsLt_bf16_f32) := by
    dsimp only [Gen.V, Gen.hostOps0]; after_results; rfl
  intro p q
  rw [e]
  exact rep_truncf _ bitsLt_bf16_f32 _ (rep_cast12 _ shapeCasts_S262144_S512x512 _ (rep1_slice 266240 _ slices_S544768_S262144_266240 W hW)) p q

/-- The array the region finds: a stretch of the flat parameter vector laid out row-major, its float format narrowed. -/
theorem arr_main_v11 (c : Dev nD) (W : ℕ → EReal)
    (hW : Rep1 (a := 544768) (φ := .f32) (m ((c : Thread nD τ).loc main_arg3)) W) :
    Rep (a := 512) (b := 32) (φ := .bf16) (V m c main_v11) (core0 W) := by
  have e : @Eq (S512x32.Idx → EReal) (V m c main_v11)
      (truncf (F := Ideal) .bf16 (shapeCast S512x32 (extractStridedSlice S16384 ![528384] (show S544768.Idx → EReal from m ((c : Thread nD τ).loc main_arg3)) slices_S544768_S16384_528384) shapeCasts_S16384_S512x32) bitsLt_bf16_f32) := by
    dsimp only [Gen.V, Gen.hostOps0]; after_results; rfl
  intro p q
  rw [e]
  exact rep_truncf _ bitsLt_bf16_f32 _ (rep_cast12 _ shapeCasts_S16384_S512x32 _ (rep1_slice 528384 _ slices_S544768_S16384_528384 W hW)) p q

/-- The array the region finds: a stretch of the flat parameter vector laid out row-major, its float format narrowed. -/
theorem arr_main_v14 (c : Dev nD) (U : ℕ → EReal)
    (hU : Rep1 (a := 544768) (φ := .f32) (m ((c : Thread nD τ).loc main_arg4)) U) :
    Rep (a := 8) (b := 512) (φ := .bf16) (V m c main_v14) (core3 U) := by
  have e : @Eq (S8x512.Idx → EReal) (V m c main_v14)
      (truncf (F := Ideal) .bf16 (shapeCast S8x512 (extractStridedSlice S4096 ![0] (show S544768.Idx → EReal from m ((c : Thread nD τ).loc main_arg4)) slices_S544768_S4096_0) shapeCasts_S4096_S8x512) bitsLt_bf16_f32) := by
    dsimp only [Gen.V, Gen.hostOps0]; after_results; rfl
  intro p q
  rw [e]
  exact rep_truncf _ bitsLt_bf16_f32 _ (rep_cast12 _ shapeCasts_S4096_S8x512 _ (rep1_slice 0 _ slices_S544768_S4096_0 U hU)) p q

/-- The array the region finds: a stretch of the flat parameter vector laid out row-major, its float format narrowed. -/
theorem arr_main_v17 (c : Dev nD) (U : ℕ → EReal)
    (hU : Rep1 (a := 544768) (φ := .f32) (m ((c : Thread nD τ).loc main_arg4)) U) :
    Rep (a := 512) (b := 512) (φ := .bf16) (V m c main_v17) (core2 U) := by
  have e : @Eq (S512x512.Idx → EReal) (V m c main_v17)
      (truncf (F := Ideal) .bf16 (shapeCast S512x512 (extractStridedSlice S262144 ![4096] (show S544768.Idx → EReal from m ((c : Thread nD τ).loc main_arg4)) slices_S544768_S262144_4096) shapeCasts_S262144_S512x512) bitsLt_bf16_f32) := by
    dsimp only [Gen.V, Gen.hostOps0]; after_results; rfl
  intro p q
  rw [e]
  exact rep_truncf _ bitsLt_bf16_f32 _ (rep_cast12 _ shapeCasts_S262144_S512x512 _ (rep1_slice 4096 _ slices_S544768_S262144_4096 U hU)) p q

/-- The array the region finds: a stretch of the flat parameter vector laid out row-major, its float format narrowed. -/
theorem arr_main_v20 (c : Dev nD) (U : ℕ → EReal)
    (hU : Rep1 (a := 544768) (φ := .f32) (m ((c : Thread nD τ).loc main_arg4)) U) :
    Rep (a := 512) (b := 512) (φ := .bf16) (V m c main_v20) (core1 U) := by
  have e : @Eq (S512x512.Idx → EReal) (V m c main_v20)
      (truncf (F := Ideal) .bf16 (shapeCast S512x512 (extractStridedSlice S262144 ![266240] (show S544768.Idx → EReal from m ((c : Thread nD τ).loc main_arg4)) slices_S544768_S262144_266240) shapeCasts_S262144_S512x512) bitsLt_bf16_f32) := by
    dsimp only [Gen.V, Gen.hostOps0]; after_results; rfl
  intro p q
  rw [e]
  exact rep_truncf _ bitsLt_bf16_f32 _ (rep_cast12 _ shapeCasts_S262144_S512x512 _ (rep1_slice 266240 _ slices_S544768_S262144_266240 U hU)) p q

/-- The array the region finds: a stretch of the flat parameter vector laid out row-major, its float format narrowed. -/
theorem arr_main_v23 (c : Dev nD) (U : ℕ → EReal)
    (hU : Rep1 (a := 544768) (φ := .f32) (m ((c : Thread nD τ).loc main_arg4)) U) :
    Rep (a := 512) (b := 32) (φ := .bf16) (V m c main_v23) (core0 U) := by
  have e : @Eq (S512x32.Idx → EReal) (V m c main_v23)
      (truncf (F := Ideal) .bf16 (shapeCast S512x32 (extractStridedSlice S16384 ![528384] (show S544768.Idx → EReal from m ((c : Thread nD τ).loc main_arg4)) slices_S544768_S16384_528384) shapeCasts_S16384_S512x32) bitsLt_bf16_f32) := by
    dsimp only [Gen.V, Gen.hostOps0]; after_results; rfl
  intro p q
  rw [e]
  exact rep_truncf _ bitsLt_bf16_f32 _ (rep_cast12 _ shapeCasts_S16384_S512x32 _ (rep1_slice 528384 _ slices_S544768_S16384_528384 U hU)) p q

/-- The bias vector laid out as one row. -/
theorem arr_main_v24 (c : Dev nD) (Bi : ℕ → EReal)
    (hBi : Rep1 (a := 16384) (φ := .f32) (m ((c : Thread nD τ).loc main_arg5)) Bi) :
    Rep (a := 1) (b := 16384) (φ := .f32) (V m c main_v24) (fun _ q => Bi q) := by
  have e : @Eq (S1x16384.Idx → EReal) (V m c main_v24)
      (shapeCast S1x16384 (show S16384.Idx → EReal from m ((c : Thread nD τ).loc main_arg5)) shapeCasts_S16384_S1x16384) := by
    dsimp only [Gen.V, Gen.hostOps0]; after_results; rfl
  intro p q
  rw [e]
  refine (rep_cast12 _ shapeCasts_S16384_S1x16384 Bi hBi p q).trans ?_
  have hp : p.val = 0 := by have := p.isLt; omega
  show Bi (p.val * 16384 + q.val) = Bi q.val
  rw [hp, Nat.zero_mul, Nat.zero_add]

/-! ## Rows of a batch are contracted independently: the pre-activation, the cell and the hidden state of a tile -/

/-- The pre-activation of rows 8t … 8t+7 computed on their own is rows 8t … 8t+7 of the whole batch's. -/
theorem pre_tile (X H : ℕ → ℕ → EReal) (W U Bi : ℕ → EReal) (t p n : ℕ) (ht : t < 32) (hp : p < 8) (hn : n < 16384) :
    preN (chain8 (fun a b => X (8 * t + a) b) (core3 W) (core2 W) (core1 W) (core0 W))
        (chain8 (fun a b => H (8 * t + a) b) (core3 U) (core2 U) (core1 U) (core0 U)) Bi p n
      = preN (tt256 X W) (tt256 H U) Bi (8 * t + p) n := by
  show chain8 (fun a b => X (8 * t + a) b) (core3 W) (core2 W) (core1 W) (core0 W) p n
      + chain8 (fun a b => H (8 * t + a) b) (core3 U) (core2 U) (core1 U) (core0 U) p n + Bi n
    = chain256 X (core3 W) (core2 W) (core1 W) (core0 W) (8 * t + p) n
      + chain256 H (core3 U) (core2 U) (core1 U) (core0 U) (8 * t + p) n + Bi n
  rw [chain_tile X _ _ _ _ t p n ht hp hn, chain_tile H _ _ _ _ t p n ht hp hn]

/-- The new cell state of a tile is the tile of the new cell state. -/
theorem cell_tile (X H Cp : ℕ → ℕ → EReal) (W U Bi : ℕ → EReal) (t p q : ℕ) (ht : t < 32) (hp : p < 8) (hq : q < 4096) :
    cellN (preN (chain8 (fun a b => X (8 * t + a) b) (core3 W) (core2 W) (core1 W) (core0 W))
        (chain8 (fun a b => H (8 * t + a) b) (core3 U) (core2 U) (core1 U) (core0 U)) Bi) (fun a b => Cp (8 * t + a) b) p q
      = cellN (preN (tt256 X W) (tt256 H U) Bi) Cp (8 * t + p) q := by
  unfold cellN
  rw [pre_tile X H W U Bi t p (4096 + q) ht hp (by omega), pre_tile X H W U Bi t p q ht hp (by omega),
    pre_tile X H W U Bi t p (8192 + q) ht hp (by omega)]

/-- The new hidden state of a tile is the tile of the new hidden state. -/
theorem hid_tile (X H Cp : ℕ → ℕ → EReal) (W U Bi : ℕ → EReal) (t p q : ℕ) (ht : t < 32) (hp : p < 8) (hq : q < 4096) :
    hidN (preN (chain8 (fun a b => X (8 * t + a) b) (core3 W) (core2 W) (core1 W) (core0 W))
        (chain8 (fun a b => H (8 * t + a) b) (core3 U) (core2 U) (core1 U) (core0 U)) Bi) (fun a b => Cp (8 * t + a) b) p q
      = hidN (preN (tt256 X W) (tt256 H U) Bi) Cp (8 * t + p) q := by
  unfold hidN
  rw [cell_tile X H Cp W U Bi t p q ht hp hq, pre_tile X H W U Bi t p (12288 + q) ht hp (by omega)]

end Cert.KVal

end
-- ==== Proof.Result.lean ====
/-
  The two results as functions of the six argument arrays.

  The input, the previous hidden state and the previous cell state are 256 × 4096 matrices; the two flat parameter
  vectors hold the cores of the two tensor-train contractions; the bias has 16384 entries. Reading each array
  through natural-number coordinates, the pre-activation is the sum of the two contractions and the bias, and the
  new cell state and the new hidden state are the cell update applied to it, entry by entry.
-/
import proofs.«113918_j62294205661397_1_alg».proof.Proof.LibRep
import proofs.«113918_j62294205661397_1_alg».proof.Proof.Spec

noncomputable section

namespace Cert.Result

open Idealize.ShloMosaic Cert.TT Cert.Spec Cert.LibRep

/-- The pre-activation of the whole batch. -/
def preOf (x h : FVec Ideal ⟨2, ![256, 4096]⟩ .f32) (w u : FVec Ideal ⟨1, ![544768]⟩ .f32)
    (bias : FVec Ideal ⟨1, ![16384]⟩ .f32) : ℕ → ℕ → EReal :=
  preN (tt256 (toN2 x) (toN1 w)) (tt256 (toN2 h) (toN1 u)) (toN1 bias)

/-- The new cell state of the whole batch, as an array. -/
def cellOf (x h cp : FVec Ideal ⟨2, ![256, 4096]⟩ .f32) (w u : FVec Ideal ⟨1, ![544768]⟩ .f32)
    (bias : FVec Ideal ⟨1, ![16384]⟩ .f32) : (⟨2, ![256, 4096]⟩ : Shape).Idx → EReal :=
  fun i => cellN (preOf x h w u bias) (toN2 cp) (i 0).val (i 1).val

/-- The new hidden state of the whole batch, as an array. -/
def hidOf (x h cp : FVec Ideal ⟨2, ![256, 4096]⟩ .f32) (w u : FVec Ideal ⟨1, ![544768]⟩ .f32)
    (bias : FVec Ideal ⟨1, ![16384]⟩ .f32) : (⟨2, ![256, 4096]⟩ : Shape).Idx → EReal :=
  fun i => hidN (preOf x h w u bias) (toN2 cp) (i 0).val (i 1).val

end Cert.Result

end
-- ==== Proof.KernelBody.lean ====
/-
  The kernel body of the recurrent cell, read through natural-number coordinates.

  The body loads its twelve input blocks whole — the input, hidden-state and cell-state tiles of 8 rows, the bias row
  and the four cores of each of the two tensor-train contractions — and stores two blocks whole: the new hidden
  state and the new cell state. A whole-block load reads the block and one whole-block store leaves the stored
  value, so each output block is a closed term in the input blocks. That term is followed operation by operation:
  each contraction chain is a composition of row-major re-layings, transpositions and rows-by-columns products
  (changes of float format change nothing over the extended reals), the pre-activation is the sum of the two chains
  and the bias row spread over the rows, its four column blocks of width 4096 are slices, and the gates are entrywise
  operations. The result: when the input blocks are the matrices `X`, `H`, `Cp`, the bias `Bi` and the cores
  `W3 … W0`, `U3 … U0`, the cell-state block is `cellN (preN (chain8 X …) (chain8 H …) Bi) Cp` and the
  hidden-state block is `hidN` of the same.
-/
import proofs.«113918_j62294205661397_1_alg».proof.Proof.Imports
import proofs.«113918_j62294205661397_1_alg».proof.Proof.LibRep
import proofs.«113918_j62294205661397_1_alg».proof.Proof.Spec

noncomputable section

namespace Cert.KBody

open Idealize.ShloMosaic Idealize.ShloMosaic.ValueIdx Cert.TT Cert.Spec Cert.LibRep Cert.KernelIdeal Cert.KernelIdeal.Gen

/-- The zero offsets of a whole-block access, spelt as a function. -/
theorem hz : (![0, 0] : Fin 2 → Nat) = fun _ => 0 := funext fun a => by fin_cases a <;> rfl

/-! ## The two contraction chains -/

/-- The first two contractions of a chain: the batch re-laid to rows of 8, contracted with the first core, re-laid,
    contracted with the second core, re-laid. -/
theorem pay10_rep (x0 : Vec Ideal S8x4096 .f32) (x4 : Vec Ideal S8x512 .bf16) (x5 : Vec Ideal S512x512 .bf16)
    (X W3 W2 : ℕ → ℕ → EReal) (h0 : Rep (φ := .f32) x0 X) (h4 : Rep (φ := .bf16) x4 W3) (h5 : Rep (φ := .bf16) x5 W2) :
    Rep (k0_pay10 (F := Ideal) x0 x4 x5)
      (stageN 262144 (mm 512 (stageN 262144 (mm 8 (castN 4096 8 X) W3)) W2)) := by
  unfold k0_pay10
  have a6 := rep_cast_self x4 shapeCasts_S8x512_S8x512 W3 h4
  have a8 := rep_cast_self x5 shapeCasts_S512x512_S512x512 W2 h5
  have a21 := rep_truncf (ψ := .bf16) x0 bitsLt_bf16_f32 X h0
  have a22 := rep_cast _ shapeCasts_S8x4096_S4096x8 _ a21
  have a23 := rep_matmul dot_S4096x8_S8x512_S4096x512_1_0_0_1_n_n_wf _ _ _ _ a22 a6
  have a24 := rep_cast _ shapeCasts_S4096x512_S262144x8 _ a23
  have a25 := rep_trans _ transposes_S262144x8_p1_0_S8x262144 _ a24
  have a26 := rep_truncf (ψ := .bf16) _ bitsLt_bf16_f32 _ a25
  have a27 := rep_cast _ shapeCasts_S8x262144_S4096x512 _ a26
  have a28 := rep_matmul dot_S4096x512_S512x512_S4096x512_1_0_0_1_n_n_wf _ _ _ _ a27 a8
  have a29 := rep_cast _ shapeCasts_S4096x512_S262144x8 _ a28
  have a30 := rep_trans _ transposes_S262144x8_p1_0_S8x262144 _ a29
  have a31 := rep_truncf (ψ := .bf16) _ bitsLt_bf16_f32 _ a30
  have a32 := rep_cast _ shapeCasts_S8x262144_S4096x512 _ a31
  exact a32

/-- The rest of a chain: the third and fourth contractions, and the two transpositions around one re-laying that make
    the batch the leading axis again. -/
theorem tail_rep (v32 : FVec Ideal S4096x512 .bf16) (v10 : FVec Ideal S512x512 .bf16) (v12 : FVec Ideal S512x32 .bf16)
    (M W1 W0 : ℕ → ℕ → EReal) (h32 : Rep v32 M) (h10 : Rep v10 W1) (h12 : Rep v12 W0) :
    Rep (extf .f32 (transpose S8x16384 [1, 0] (shapeCast S16384x8 (truncf .bf16 (transpose S32x4096 [1, 0]
        (matmul dot_S4096x512_S512x32_S4096x32_1_0_0_1_n_n none
          (shapeCast S4096x512 (truncf .bf16 (transpose S8x262144 [1, 0] (shapeCast S262144x8
            (matmul dot_S4096x512_S512x512_S4096x512_1_0_0_1_n_n none v32 v10 (constant (F := Ideal) S4096x512 .f32 0x00000000#32))
            shapeCasts_S4096x512_S262144x8) transposes_S262144x8_p1_0_S8x262144) bitsLt_bf16_f32) shapeCasts_S8x262144_S4096x512)
          v12 (constant (F := Ideal) S4096x32 .f32 0x00000000#32))
        transposes_S4096x32_p1_0_S32x4096) bitsLt_bf16_f32) shapeCasts_S32x4096_S16384x8) transposes_S16384x8_p1_0_S8x16384)
        bitsLt_bf16_f32 : FVec Ideal S8x16384 .f32)
      (transN (castN 4096 8 (transN (mm 512 (stageN 262144 (mm 512 M W1)) W0)))) := by
  have a33 := rep_matmul dot_S4096x512_S512x512_S4096x512_1_0_0_1_n_n_wf _ _ _ _ h32 h10
  have a34 := rep_cast _ shapeCasts_S4096x512_S262144x8 _ a33
  have a35 := rep_trans _ transposes_S262144x8_p1_0_S8x262144 _ a34
  have a36 := rep_truncf (ψ := .bf16) _ bitsLt_bf16_f32 _ a35
  have a37 := rep_cast _ shapeCasts_S8x262144_S4096x512 _ a36
  have a38 := rep_matmul dot_S4096x512_S512x32_S4096x32_1_0_0_1_n_n_wf _ _ _ _ a37 h12
  have a39 := rep_trans _ transposes_S4096x32_p1_0_S32x4096 _ a38
  have a40 := rep_truncf (ψ := .bf16) _ bitsLt_bf16_f32 _ a39
  have a41 := rep_cast _ shapeCasts_S32x4096_S16384x8 _ a40
  have a42 := rep_trans _ transposes_S16384x8_p1_0_S8x16384 _ a41
  have a43 := rep_extf (ψ := .f32) _ bitsLt_bf16_f32 _ a42
  exact a43

/-! ## Pointwise operations and the bias row -/

/-- The entrywise sum of two matrices. -/
theorem rep_addf {a b : ℕ} {φ : FTy} (u v : FVec Ideal ⟨2, ![a, b]⟩ φ) (M N : ℕ → ℕ → EReal)
    (hu : Rep u M) (hv : Rep v N) : Rep (addf u v) (fun p q => M p q + N p q) := by
  intro p q
  show u (ix2 p q) + v (ix2 p q) = M p.val q.val + N p.val q.val
  rw [hu p q, hv p q]

/-- A one-row matrix spread over all rows reads its row. -/
theorem rep_bcast_row {a b : ℕ} {φ : FTy} (v : FVec Ideal ⟨2, ![1, b]⟩ φ)
    (h : (⟨2, ![1, b]⟩ : Shape).Broadcasts ⟨2, ![a, b]⟩) (N : ℕ → ℕ → EReal) (hv : Rep v N) :
    Rep (broadcastTo ⟨2, ![a, b]⟩ v h) (fun _ q => N 0 q) := by
  intro p q
  refine (broadcastTo_apply v h (ix2 p q) (ix2 (0 : Fin 1) q) fun ax => ?_).trans (hv _ _)
  match ax with
  | ⟨0, _⟩ => rfl
  | ⟨1, _⟩ =>
    show q.val = if b = 1 then 0 else q.val
    split
    · have := q.isLt; omega
    · rfl

/-- A block of columns from column `o` on reads the entry `o` columns further. -/
theorem rep_slice_cols {a b c : ℕ} (o : ℕ) {φ : FTy} (v : FVec Ideal ⟨2, ![a, b]⟩ φ)
    (h : (⟨2, ![a, b]⟩ : Shape).Slices ![0, o] ⟨2, ![a, c]⟩) (N : ℕ → ℕ → EReal) (hv : Rep v N) :
    Rep (extractStridedSlice ⟨2, ![a, c]⟩ ![0, o] v h) (fun p q => N p (o + q)) := by
  intro p q
  have hb : o + q.val < b := by
    have h0 : o + c ≤ b := h.2 1
    have := q.isLt; omega
  refine (extractStridedSlice_apply ![0, o] v h (ix2 p q) (ix2 p ⟨o + q.val, hb⟩) (fun ax => ?_)).trans (hv _ _)
  match ax with
  | ⟨0, _⟩ => exact (Nat.zero_add p.val).symm
  | ⟨1, _⟩ => rfl

/-- The pre-activation: both chains, summed, plus the bias row. -/
theorem pay11_rep (x1 : Vec Ideal S8x4096 .f32) (v4 : FVec Ideal S1x16384 .f32) (v10 : FVec Ideal S512x512 .bf16)
    (v12 : FVec Ideal S512x32 .bf16) (v14 : FVec Ideal S8x512 .bf16) (v16 v18 : FVec Ideal S512x512 .bf16)
    (v20 : FVec Ideal S512x32 .bf16) (v32 : FVec Ideal S4096x512 .bf16)
    (H : ℕ → ℕ → EReal) (Bi : ℕ → EReal) (M W1 W0 U3 U2 U1 U0 : ℕ → ℕ → EReal)
    (h1 : Rep (φ := .f32) x1 H) (h4 : Rep v4 (fun _ q => Bi q)) (h10 : Rep v10 W1) (h12 : Rep v12 W0)
    (h14 : Rep v14 U3) (h16 : Rep v16 U2) (h18 : Rep v18 U1) (h20 : Rep v20 U0) (h32 : Rep v32 M) :
    Rep (k0_pay11 (F := Ideal) x1 v4 v10 v12 v14 v16 v18 v20 v32)
      (preN (transN (castN 4096 8 (transN (mm 512 (stageN 262144 (mm 512 M W1)) W0)))) (chain8 H U3 U2 U1 U0) Bi) := by
  unfold k0_pay11
  have a43 := tail_rep v32 v10 v12 M W1 W0 h32 h10 h12
  have a44 := rep_truncf (ψ := .bf16) x1 bitsLt_bf16_f32 H h1
  have a45 := rep_cast _ shapeCasts_S8x4096_S4096x8 _ a44
  have a46 := rep_matmul dot_S4096x8_S8x512_S4096x512_1_0_0_1_n_n_wf _ _ _ _ a45 h14
  have a47 := rep_cast _ shapeCasts_S4096x512_S262144x8 _ a46
  have a48 := rep_trans _ transposes_S262144x8_p1_0_S8x262144 _ a47
  have a49 := rep_truncf (ψ := .bf16) _ bitsLt_bf16_f32 _ a48
  have a50 := rep_cast _ shapeCasts_S8x262144_S4096x512 _ a49
  have a51 := rep_matmul dot_S4096x512_S512x512_S4096x512_1_0_0_1_n_n_wf _ _ _ _ a50 h16
  have a52 := rep_cast _ shapeCasts_S4096x512_S262144x8 _ a51
  have a53 := rep_trans _ transposes_S262144x8_p1_0_S8x262144 _ a52
  have a54 := rep_truncf (ψ := .bf16) _ bitsLt_bf16_f32 _ a53
  have a55 := rep_cast _ shapeCasts_S8x262144_S4096x512 _ a54
  have a66 := tail_rep _ v18 v20 _ U1 U0 a55 h18 h20
  have a67 := rep_addf _ _ _ _ a43 a66
  have a68 := rep_bcast_row (a := 8) v4 broadcasts_S1x16384_S8x16384 _ h4
  have a69 := rep_addf _ _ _ _ a67 a68
  exact a69

/-! ## The gates, entry by entry -/

/-- The new cell state at an entry: the forget gate times the previous cell state plus the input gate times the
    hyperbolic tangent of the candidate. -/
theorem pay1_apply (v2 : Vec Ideal S8x4096 .f32) (v71 v72 v81 : FVec Ideal S8x4096 .f32) (i : S8x4096.Idx) :
    k0_pay1 (F := Ideal) v2 v71 v72 v81 (Scalar.ofBits .f32 0x3E4CCCCD#32) i
      = hsig (v71 i) * v2 i + v81 i * Ideal.tanh (v72 i) := rfl

/-- The new hidden state at an entry: the output gate times the hyperbolic tangent of the new cell state. -/
theorem pay2_apply (v2 : Vec Ideal S8x4096 .f32) (v71 v72 v73 v81 : FVec Ideal S8x4096 .f32) (i : S8x4096.Idx) :
    k0_pay2 (F := Ideal) v2 v71 v72 v73 v81 (Scalar.ofBits .f32 0x3E4CCCCD#32) i
      = hsig (v73 i) * Ideal.tanh (k0_pay1 (F := Ideal) v2 v71 v72 v81 (Scalar.ofBits .f32 0x3E4CCCCD#32) i) := rfl

/-- The input gate at an entry: the hard sigmoid of the first column block of the pre-activation. -/
theorem pay15_apply (v1 : Vec Ideal S8x4096 .f32) (v4 : FVec Ideal S1x16384 .f32) (v10 : FVec Ideal S512x512 .bf16)
    (v12 : FVec Ideal S512x32 .bf16) (v14 : FVec Ideal S8x512 .bf16) (v16 v18 : FVec Ideal S512x512 .bf16)
    (v20 : FVec Ideal S512x32 .bf16) (v32 : FVec Ideal S4096x512 .bf16) (i : S8x4096.Idx) :
    k0_pay15 (F := Ideal) v1 v4 v10 v12 v14 v16 v18 v20 v32 i
      = hsig (extractStridedSlice S8x4096 ![0, 0] (k0_pay11 (F := Ideal) v1 v4 v10 v12 v14 v16 v18 v20 v32)
          slices_S8x16384_o0_0_S8x4096 i) := rfl

/-! ## What the body leaves in the two output blocks -/

/-- The body's one store to the cell-state block, over whole-block loads: the block holds the stored value. -/
theorem out13_eq (x0 x1 x2 : Vec Ideal S8x4096 .f32) (x3 : Vec Ideal S1x16384 .f32) (x4 : Vec Ideal S8x512 .bf16)
    (x5 x6 : Vec Ideal S512x512 .bf16) (x7 : Vec Ideal S512x32 .bf16) (x8 : Vec Ideal S8x512 .bf16)
    (x9 x10 : Vec Ideal S512x512 .bf16) (x11 : Vec Ideal S512x32 .bf16) :
    out0_13 (F := Ideal) x0 x1 x2 x3 x4 x5 x6 x7 x8 x9 x10 x11
      = k0_pay1 x2
          (k0_pay12 x1 (k0_pay3 x3) (k0_pay4 x6) (k0_pay5 x7) (k0_pay6 x8) (k0_pay7 x9) (k0_pay8 x10) (k0_pay9 x11) (k0_pay10 x0 x4 x5))
          (k0_pay13 x1 (k0_pay3 x3) (k0_pay4 x6) (k0_pay5 x7) (k0_pay6 x8) (k0_pay7 x9) (k0_pay8 x10) (k0_pay9 x11) (k0_pay10 x0 x4 x5))
          (k0_pay15 x1 (k0_pay3 x3) (k0_pay4 x6) (k0_pay5 x7) (k0_pay6 x8) (k0_pay7 x9) (k0_pay8 x10) (k0_pay9 x11) (k0_pay10 x0 x4 x5))
          (Scalar.ofBits .f32 0x3E4CCCCD#32) := by
  unfold out0_13
  rw [View.canon_unit_zero hz]
  simp only [View.ld_unit_zero (S := S8x4096) hz, View.ld_unit_zero (S := S1x16384) hz, View.ld_unit_zero (S := S8x512) hz,
    View.ld_unit_zero (S := S512x512) hz, View.ld_unit_zero (S := S512x32) hz]

/-- The body's one store to the hidden-state block. -/
theorem out12_eq (x0 x1 x2 : Vec Ideal S8x4096 .f32) (x3 : Vec Ideal S1x16384 .f32) (x4 : Vec Ideal S8x512 .bf16)
    (x5 x6 : Vec Ideal S512x512 .bf16) (x7 : Vec Ideal S512x32 .bf16) (x8 : Vec Ideal S8x512 .bf16)
    (x9 x10 : Vec Ideal S512x512 .bf16) (x11 : Vec Ideal S512x32 .bf16) :
    out0_12 (F := Ideal) x0 x1 x2 x3 x4 x5 x6 x7 x8 x9 x10 x11
      = k0_pay2 x2
          (k0_pay12 x1 (k0_pay3 x3) (k0_pay4 x6) (k0_pay5 x7) (k0_pay6 x8) (k0_pay7 x9) (k0_pay8 x10) (k0_pay9 x11) (k0_pay10 x0 x4 x5))
          (k0_pay13 x1 (k0_pay3 x3) (k0_pay4 x6) (k0_pay5 x7) (k0_pay6 x8) (k0_pay7 x9) (k0_pay8 x10) (k0_pay9 x11) (k0_pay10 x0 x4 x5))
          (k0_pay14 x1 (k0_pay3 x3) (k0_pay4 x6) (k0_pay5 x7) (k0_pay6 x8) (k0_pay7 x9) (k0_pay8 x10) (k0_pay9 x11) (k0_pay10 x0 x4 x5))
          (k0_pay15 x1 (k0_pay3 x3) (k0_pay4 x6) (k0_pay5 x7) (k0_pay6 x8) (k0_pay7 x9) (k0_pay8 x10) (k0_pay9 x11) (k0_pay10 x0 x4 x5))
          (Scalar.ofBits .f32 0x3E4CCCCD#32) := by
  unfold out0_12
  rw [View.canon_unit_zero hz]
  simp only [View.ld_unit_zero (S := S8x4096) hz, View.ld_unit_zero (S := S1x16384) hz, View.ld_unit_zero (S := S8x512) hz,
    View.ld_unit_zero (S := S512x512) hz, View.ld_unit_zero (S := S512x32) hz]

/-! ## The column blocks of the pre-activation and the two results -/

/-- The forget block: columns from 4096 on. -/
theorem pay12_rep (v1 : Vec Ideal S8x4096 .f32) (v4 : FVec Ideal S1x16384 .f32) (v10 : FVec Ideal S512x512 .bf16)
    (v12 : FVec Ideal S512x32 .bf16) (v14 : FVec Ideal S8x512 .bf16) (v16 v18 : FVec Ideal S512x512 .bf16)
    (v20 : FVec Ideal S512x32 .bf16) (v32 : FVec Ideal S4096x512 .bf16)
    (Z : ℕ → ℕ → EReal) (hZ : Rep (k0_pay11 (F := Ideal) v1 v4 v10 v12 v14 v16 v18 v20 v32) Z) :
    Rep (k0_pay12 (F := Ideal) v1 v4 v10 v12 v14 v16 v18 v20 v32) (fun p q => Z p (4096 + q)) :=
  rep_slice_cols 4096 _ slices_S8x16384_o0_4096_S8x4096 _ hZ

/-- The candidate block: columns from 8192 on. -/
theorem pay13_rep (v1 : Vec Ideal S8x4096 .f32) (v4 : FVec Ideal S1x16384 .f32) (v10 : FVec Ideal S512x512 .bf16)
    (v12 : FVec Ideal S512x32 .bf16) (v14 : FVec Ideal S8x512 .bf16) (v16 v18 : FVec Ideal S512x512 .bf16)
    (v20 : FVec Ideal S512x32 .bf16) (v32 : FVec Ideal S4096x512 .bf16)
    (Z : ℕ → ℕ → EReal) (hZ : Rep (k0_pay11 (F := Ideal) v1 v4 v10 v12 v14 v16 v18 v20 v32) Z) :
    Rep (k0_pay13 (F := Ideal) v1 v4 v10 v12 v14 v16 v18 v20 v32) (fun p q => Z p (8192 + q)) :=
  rep_slice_cols 8192 _ slices_S8x16384_o0_8192_S8x4096 _ hZ

/-- The output block: columns from 12288 on. -/
theorem pay14_rep (v1 : Vec Ideal S8x4096 .f32) (v4 : FVec Ideal S1x16384 .f32) (v10 : FVec Ideal S512x512 .bf16)
    (v12 : FVec Ideal S512x32 .bf16) (v14 : FVec Ideal S8x512 .bf16) (v16 v18 : FVec Ideal S512x512 .bf16)
    (v20 : FVec Ideal S512x32 .bf16) (v32 : FVec Ideal S4096x512 .bf16)
    (Z : ℕ → ℕ → EReal) (hZ : Rep (k0_pay11 (F := Ideal) v1 v4 v10 v12 v14 v16 v18 v20 v32) Z) :
    Rep (k0_pay14 (F := Ideal) v1 v4 v10 v12 v14 v16 v18 v20 v32) (fun p q => Z p (12288 + q)) :=
  rep_slice_cols 12288 _ slices_S8x16384_o0_12288_S8x4096 _ hZ

/-- The input gate: the hard sigmoid of the first 4096 columns. -/
theorem pay15_rep (v1 : Vec Ideal S8x4096 .f32) (v4 : FVec Ideal S1x16384 .f32) (v10 : FVec Ideal S512x512 .bf16)
    (v12 : FVec Ideal S512x32 .bf16) (v14 : FVec Ideal S8x512 .bf16) (v16 v18 : FVec Ideal S512x512 .bf16)
    (v20 : FVec Ideal S512x32 .bf16) (v32 : FVec Ideal S4096x512 .bf16)
    (Z : ℕ → ℕ → EReal) (hZ : Rep (k0_pay11 (F := Ideal) v1 v4 v10 v12 v14 v16 v18 v20 v32) Z) :
    Rep (k0_pay15 (F := Ideal) v1 v4 v10 v12 v14 v16 v18 v20 v32) (fun p q => hsig (Z p q)) := by
  intro p q
  have e := rep_slice_cols 0 _ slices_S8x16384_o0_0_S8x4096 _ hZ p q
  rw [pay15_apply, e]
  show hsig (Z p.val (0 + q.val)) = hsig (Z p.val q.val)
  rw [Nat.zero_add]

/-- The new cell state, from the previous cell state, two blocks of the pre-activation and the input gate. -/
theorem cell_rep (v2 : Vec Ideal S8x4096 .f32) (v71 v72 v81 : FVec Ideal S8x4096 .f32) (Z Cp : ℕ → ℕ → EReal)
    (h2 : Rep (φ := .f32) v2 Cp) (h71 : Rep v71 (fun p q => Z p (4096 + q)))
    (h72 : Rep v72 (fun p q => Z p (8192 + q))) (h81 : Rep v81 (fun p q => hsig (Z p q))) :
    Rep (k0_pay1 (F := Ideal) v2 v71 v72 v81 (Scalar.ofBits .f32 0x3E4CCCCD#32)) (cellN Z Cp) := by
  intro p q
  have e2 : v2 (ix2 p q) = Cp p.val q.val := h2 p q
  have e71 : v71 (ix2 p q) = Z p.val (4096 + q.val) := h71 p q
  have e72 : v72 (ix2 p q) = Z p.val (8192 + q.val) := h72 p q
  have e81 : v81 (ix2 p q) = hsig (Z p.val q.val) := h81 p q
  show k0_pay1 (F := Ideal) v2 v71 v72 v81 (Scalar.ofBits .f32 0x3E4CCCCD#32) (ix2 p q)
    = hsig (Z p.val (4096 + q.val)) * Cp p.val q.val + hsig (Z p.val q.val) * Ideal.tanh (Z p.val (8192 + q.val))
  rw [pay1_apply, e2, e71, e72, e81]

/-- The new hidden state, from the new cell state and the output block of the pre-activation. -/
theorem hid_rep (v2 : Vec Ideal S8x4096 .f32) (v71 v72 v73 v81 : FVec Ideal S8x4096 .f32) (Z Cp : ℕ → ℕ → EReal)
    (h2 : Rep (φ := .f32) v2 Cp) (h71 : Rep v71 (fun p q => Z p (4096 + q)))
    (h72 : Rep v72 (fun p q => Z p (8192 + q))) (h73 : Rep v73 (fun p q => Z p (12288 + q)))
    (h81 : Rep v81 (fun p q => hsig (Z p q))) :
    Rep (k0_pay2 (F := Ideal) v2 v71 v72 v73 v81 (Scalar.ofBits .f32 0x3E4CCCCD#32)) (hidN Z Cp) := by
  intro p q
  have ec : k0_pay1 (F := Ideal) v2 v71 v72 v81 (Scalar.ofBits .f32 0x3E4CCCCD#32) (ix2 p q) = cellN Z Cp p.val q.val :=
    cell_rep v2 v71 v72 v81 Z Cp h2 h71 h72 h81 p q
  have e73 : v73 (ix2 p q) = Z p.val (12288 + q.val) := h73 p q
  show k0_pay2 (F := Ideal) v2 v71 v72 v73 v81 (Scalar.ofBits .f32 0x3E4CCCCD#32) (ix2 p q)
    = hsig (Z p.val (12288 + q.val)) * Ideal.tanh (cellN Z Cp p.val q.val)
  rw [pay2_apply, ec, e73]

/-- The pre-activation the body computes from its input blocks. -/
theorem pre_rep (x0 x1 x2 : Vec Ideal S8x4096 .f32) (x3 : Vec Ideal S1x16384 .f32) (x4 : Vec Ideal S8x512 .bf16)
    (x5 x6 : Vec Ideal S512x512 .bf16) (x7 : Vec Ideal S512x32 .bf16) (x8 : Vec Ideal S8x512 .bf16)
    (x9 x10 : Vec Ideal S512x512 .bf16) (x11 : Vec Ideal S512x32 .bf16)
    (X H Cp : ℕ → ℕ → EReal) (Bi : ℕ → EReal) (W3 W2 W1 W0 U3 U2 U1 U0 : ℕ → ℕ → EReal)
    (h0 : Rep (φ := .f32) x0 X) (h1 : Rep (φ := .f32) x1 H) (h2 : Rep (φ := .f32) x2 Cp)
    (h3 : Rep (φ := .f32) x3 (fun _ q => Bi q))
    (h4 : Rep (φ := .bf16) x4 W3) (h5 : Rep (φ := .bf16) x5 W2) (h6 : Rep (φ := .bf16) x6 W1)
    (h7 : Rep (φ := .bf16) x7 W0) (h8 : Rep (φ := .bf16) x8 U3) (h9 : Rep (φ := .bf16) x9 U2)
    (h10 : Rep (φ := .bf16) x10 U1) (h11 : Rep (φ := .bf16) x11 U0) :
    Rep (k0_pay11 (F := Ideal) x1 (k0_pay3 x3) (k0_pay4 x6) (k0_pay5 x7) (k0_pay6 x8) (k0_pay7 x9) (k0_pay8 x10) (k0_pay9 x11) (k0_pay10 x0 x4 x5))
      (preN (chain8 X W3 W2 W1 W0) (chain8 H U3 U2 U1 U0) Bi) :=
  pay11_rep x1 _ _ _ _ _ _ _ _ H Bi _ W1 W0 U3 U2 U1 U0 h1
    (rep_cast_self x3 shapeCasts_S1x16384_S1x16384 _ h3)
    (rep_cast_self x6 shapeCasts_S512x512_S512x512 _ h6)
    (rep_cast_self x7 shapeCasts_S512x32_S512x32 _ h7)
    (rep_cast_self x8 shapeCasts_S8x512_S8x512 _ h8)
    (rep_cast_self x9 shapeCasts_S512x512_S512x512 _ h9)
    (rep_cast_self x10 shapeCasts_S512x512_S512x512 _ h10)
    (rep_cast_self x11 shapeCasts_S512x32_S512x32 _ h11)
    (pay10_rep x0 x4 x5 X W3 W2 h0 h4 h5)

/-- The cell-state block after the body is the new cell state of the input blocks. -/
theorem out13_rep (x0 x1 x2 : Vec Ideal S8x4096 .f32) (x3 : Vec Ideal S1x16384 .f32) (x4 : Vec Ideal S8x512 .bf16)
    (x5 x6 : Vec Ideal S512x512 .bf16) (x7 : Vec Ideal S512x32 .bf16) (x8 : Vec Ideal S8x512 .bf16)
    (x9 x10 : Vec Ideal S512x512 .bf16) (x11 : Vec Ideal S512x32 .bf16)
    (X H Cp : ℕ → ℕ → EReal) (Bi : ℕ → EReal) (W3 W2 W1 W0 U3 U2 U1 U0 : ℕ → ℕ → EReal)
    (h0 : Rep (φ := .f32) x0 X) (h1 : Rep (φ := .f32) x1 H) (h2 : Rep (φ := .f32) x2 Cp)
    (h3 : Rep (φ := .f32) x3 (fun _ q => Bi q))
    (h4 : Rep (φ := .bf16) x4 W3) (h5 : Rep (φ := .bf16) x5 W2) (h6 : Rep (φ := .bf16) x6 W1)
    (h7 : Rep (φ := .bf16) x7 W0) (h8 : Rep (φ := .bf16) x8 U3) (h9 : Rep (φ := .bf16) x9 U2)
    (h10 : Rep (φ := .bf16) x10 U1) (h11 : Rep (φ := .bf16) x11 U0) :
    Rep (a := 8) (b := 4096) (φ := .f32) (out0_13 (F := Ideal) x0 x1 x2 x3 x4 x5 x6 x7 x8 x9 x10 x11)
      (cellN (preN (chain8 X W3 W2 W1 W0) (chain8 H U3 U2 U1 U0) Bi) Cp) := by
  rw [out13_eq]
  have hZ := pre_rep x0 x1 x2 x3 x4 x5 x6 x7 x8 x9 x10 x11 X H Cp Bi W3 W2 W1 W0 U3 U2 U1 U0 h0 h1 h2 h3 h4 h5 h6 h7 h8 h9 h10 h11
  exact cell_rep x2 _ _ _ _ Cp h2 (pay12_rep _ _ _ _ _ _ _ _ _ _ hZ) (pay13_rep _ _ _ _ _ _ _ _ _ _ hZ)
    (pay15_rep _ _ _ _ _ _ _ _ _ _ hZ)

/-- The hidden-state block after the body is the new hidden state of the input blocks. -/
theorem out12_rep (x0 x1 x2 : Vec Ideal S8x4096 .f32) (x3 : Vec Ideal S1x16384 .f32) (x4 : Vec Ideal S8x512 .bf16)
    (x5 x6 : Vec Ideal S512x512 .bf16) (x7 : Vec Ideal S512x32 .bf16) (x8 : Vec Ideal S8x512 .bf16)
    (x9 x10 : Vec Ideal S512x512 .bf16) (x11 : Vec Ideal S512x32 .bf16)
    (X H Cp : ℕ → ℕ → EReal) (Bi : ℕ → EReal) (W3 W2 W1 W0 U3 U2 U1 U0 : ℕ → ℕ → EReal)
    (h0 : Rep (φ := .f32) x0 X) (h1 : Rep (φ := .f32) x1 H) (h2 : Rep (φ := .f32) x2 Cp)
    (h3 : Rep (φ := .f32) x3 (fun _ q => Bi q))
    (h4 : Rep (φ := .bf16) x4 W3) (h5 : Rep (φ := .bf16) x5 W2) (h6 : Rep (φ := .bf16) x6 W1)
    (h7 : Rep (φ := .bf16) x7 W0) (h8 : Rep (φ := .bf16) x8 U3) (h9 : Rep (φ := .bf16) x9 U2)
    (h10 : Rep (φ := .bf16) x10 U1) (h11 : Rep (φ := .bf16) x11 U0) :
    Rep (a := 8) (b := 4096) (φ := .f32) (out0_12 (F := Ideal) x0 x1 x2 x3 x4 x5 x6 x7 x8 x9 x10 x11)
      (hidN (preN (chain8 X W3 W2 W1 W0) (chain8 H U3 U2 U1 U0) Bi) Cp) := by
  rw [out12_eq]
  have hZ := pre_rep x0 x1 x2 x3 x4 x5 x6 x7 x8 x9 x10 x11 X H Cp Bi W3 W2 W1 W0 U3 U2 U1 U0 h0 h1 h2 h3 h4 h5 h6 h7 h8 h9 h10 h11
  exact hid_rep x2 _ _ _ _ _ Cp h2 (pay12_rep _ _ _ _ _ _ _ _ _ _ hZ) (pay13_rep _ _ _ _ _ _ _ _ _ _ hZ)
    (pay14_rep _ _ _ _ _ _ _ _ _ _ hZ) (pay15_rep _ _ _ _ _ _ _ _ _ _ hZ)

end Cert.KBody

end
-- ==== Proof.KernelValue.lean ====
import proofs.«113918_j62294205661397_1_alg».proof.Proof.KernelArrays
import proofs.«113918_j62294205661397_1_alg».proof.Proof.Result
import proofs.«113918_j62294205661397_1_alg».proof.Proof.KernelBody

noncomputable section

/-!
  The idealized kernel's two result arrays after its run.

  At grid point t the body receives rows 8t … 8t+7 of the input, the previous hidden state and the previous cell
  state, and the whole bias row and cores. What it leaves in an output block is the cell update of those eight rows
  on their own; since the rows of a batch are contracted independently, that is rows 8t … 8t+7 of the cell update of
  the whole batch. The 32 blocks cover the 256 rows (row r is in the block of point r / 8), so after the run each
  result array is the cell update of the whole batch.
-/
namespace Cert.KVal

open Cert.KernelIdeal Cert.KernelIdeal.Gen Idealize.ShloMosaic Idealize.ShloMosaic.TcCoe Idealize.SL.Sem
open Idealize.ShloMosaic.ValueIdx Cert.TT Cert.Spec Cert.LibRep Cert.Result
open Idealize.ShloMosaic.Pipeline (Dat)

variable (m : (ℓ : Loc nD τ sig) → Buf (Elt Ideal) ℓ) (ρ : Dev nD → PrngReg)

/-- What point t writes back to the new cell state array is block t of the new cell state of the whole batch. -/
theorem flushed13_eq (c : Dev nD) (t : Fin cfg0.N) :
    (dats m 0 c).flushed 13 t = ((cfg0.win 13).blk t).view.read (Elt Ideal)
      (cellOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Cert.KernelIdeal.Value.flushed13]
  funext j
  obtain ⟨p, q, rfl⟩ : ∃ (p : Fin 8) (q : Fin 4096), j = ix2 p q := ⟨j 0, j 1, eq_ix2 j⟩
  have ht : t.val < 32 := t.isLt
  have hV0 : Rep (a := 256) (b := 4096) (φ := .f32) (V m c main_arg0) (toN2 (a := 256) (b := 4096) (φ := .f32) (m ((c : Thread nD τ).loc main_arg0))) := by
    rw [V_main_arg0]; exact rep_toN2 _
  have hV1 : Rep (a := 256) (b := 4096) (φ := .f32) (V m c main_arg1) (toN2 (a := 256) (b := 4096) (φ := .f32) (m ((c : Thread nD τ).loc main_arg1))) := by
    rw [V_main_arg1]; exact rep_toN2 _
  have hV2 : Rep (a := 256) (b := 4096) (φ := .f32) (V m c main_arg2) (toN2 (a := 256) (b := 4096) (φ := .f32) (m ((c : Thread nD τ).loc main_arg2))) := by
    rw [V_main_arg2]; exact rep_toN2 _
  have hW : Rep1 (a := 544768) (φ := .f32) (m ((c : Thread nD τ).loc main_arg3)) (toN1 (a := 544768) (φ := .f32) (m ((c : Thread nD τ).loc main_arg3))) := rep1_toN1 _
  have hU : Rep1 (a := 544768) (φ := .f32) (m ((c : Thread nD τ).loc main_arg4)) (toN1 (a := 544768) (φ := .f32) (m ((c : Thread nD τ).loc main_arg4))) := rep1_toN1 _
  have hB : Rep1 (a := 16384) (φ := .f32) (m ((c : Thread nD τ).loc main_arg5)) (toN1 (a := 16384) (φ := .f32) (m ((c : Thread nD τ).loc main_arg5))) := rep1_toN1 _
  have key := Cert.KBody.out13_rep (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    _ _ _ _ _ _ _ _ _ _ _ _
    (blk0_rep m c t _ hV0) (blk1_rep m c t _ hV1) (blk2_rep m c t _ hV2) (blk3_rep m c t _ (arr_main_v24 m c _ hB))
    (blk4_rep m c t _ (arr_main_v2 m c _ hW)) (blk5_rep m c t _ (arr_main_v5 m c _ hW)) (blk6_rep m c t _ (arr_main_v8 m c _ hW))
    (blk7_rep m c t _ (arr_main_v11 m c _ hW)) (blk8_rep m c t _ (arr_main_v14 m c _ hU)) (blk9_rep m c t _ (arr_main_v17 m c _ hU))
    (blk10_rep m c t _ (arr_main_v20 m c _ hU)) (blk11_rep m c t _ (arr_main_v23 m c _ hU)) p q
  refine key.trans ?_
  obtain ⟨-, -, -, -, -, -, e120, e121, e130, e131⟩ := idx_facts t
  have h : ((cfg0.win 13).blk t).view.emb (ix2 p q) = ix2 (⟨8 * t.val + p.val, by omega⟩ : Fin 256) (⟨q.val, q.isLt⟩ : Fin 4096) := by
    funext a; apply Fin.ext
    match a with
    | ⟨0, _⟩ => show win0_13.index t (0 : Fin 2) * 8 + 1 * p.val = 8 * t.val + p.val; omega
    | ⟨1, _⟩ => show win0_13.index t (1 : Fin 2) * 4096 + 1 * q.val = q.val; omega
  show _ = cellOf _ _ _ _ _ _ (((cfg0.win 13).blk t).view.emb (ix2 p q))
  rw [h]
  exact cell_tile _ _ _ _ _ _ t.val p.val q.val ht p.isLt q.isLt

/-- An index of the array is in point t's block iff each coordinate is in the block's range on its axis. -/
theorem mem_blk13 (t : Fin cfg0.N) (i : S256x4096.Idx) :
    i ∈ ((cfg0.win 13).blk t).view.set ↔ ∀ a : Fin 2, win0_13.index t a * S8x4096.size a ≤ (i a).val ∧ (i a).val < win0_13.index t a * S8x4096.size a + S8x4096.size a := by
  show i ∈ ((View.whole main_v25_1).slice (win0_13.rect t)).set ↔ _
  rw [View.set_slice_whole, Rect.mem_set_unit]
  exact Iff.rfl

/-- Every index of the array is in some point's block: row r is in the block of point r / 8. -/
theorem cover13 (i : S256x4096.Idx) :
    ∃ t : Fin cfg0.N, (cfg0.win 13).flush t = true ∧ i ∈ ((cfg0.win 13).blk t).view.set := by
  have hi0 : (i 0).val < 256 := (i 0).isLt
  have hi1 : (i 1).val < 4096 := (i 1).isLt
  have hN : cfg0.N = 32 := N_0
  have hlt : (i 0).val / 8 < cfg0.N := by rw [hN]; omega
  obtain ⟨-, -, -, -, -, -, e120, e121, e130, e131⟩ := idx_facts ⟨(i 0).val / 8, hlt⟩
  refine ⟨⟨(i 0).val / 8, hlt⟩, flush0_13 _, ?_⟩
  rw [mem_blk13]
  have f0 : win0_13.index ⟨(i 0).val / 8, hlt⟩ (0 : Fin 2) = (i 0).val / 8 := e130
  have f1 : win0_13.index ⟨(i 0).val / 8, hlt⟩ (1 : Fin 2) = 0 := e131
  intro a
  match a with
  | ⟨0, _⟩ => show win0_13.index ⟨(i 0).val / 8, hlt⟩ (0 : Fin 2) * 8 ≤ (i 0).val ∧ (i 0).val < win0_13.index ⟨(i 0).val / 8, hlt⟩ (0 : Fin 2) * 8 + 8; omega
  | ⟨1, _⟩ => show win0_13.index ⟨(i 0).val / 8, hlt⟩ (1 : Fin 2) * 4096 ≤ (i 1).val ∧ (i 1).val < win0_13.index ⟨(i 0).val / 8, hlt⟩ (1 : Fin 2) * 4096 + 4096; omega

/-- After the run the array is the new cell state of the whole batch. -/
theorem final13 (c : Dev nD) : (dats m 0 c).arrAt 13 cfg0.N
    = cellOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 13 _ (fun t _ => flushed13_eq m c t) cover13

/-- What point t writes back to the new hidden state array is block t of the new hidden state of the whole batch. -/
theorem flushed12_eq (c : Dev nD) (t : Fin cfg0.N) :
    (dats m 0 c).flushed 12 t = ((cfg0.win 12).blk t).view.read (Elt Ideal)
      (hidOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Cert.KernelIdeal.Value.flushed12]
  funext j
  obtain ⟨p, q, rfl⟩ : ∃ (p : Fin 8) (q : Fin 4096), j = ix2 p q := ⟨j 0, j 1, eq_ix2 j⟩
  have ht : t.val < 32 := t.isLt
  have hV0 : Rep (a := 256) (b := 4096) (φ := .f32) (V m c main_arg0) (toN2 (a := 256) (b := 4096) (φ := .f32) (m ((c : Thread nD τ).loc main_arg0))) := by
    rw [V_main_arg0]; exact rep_toN2 _
  have hV1 : Rep (a := 256) (b := 4096) (φ := .f32) (V m c main_arg1) (toN2 (a := 256) (b := 4096) (φ := .f32) (m ((c : Thread nD τ).loc main_arg1))) := by
    rw [V_main_arg1]; exact rep_toN2 _
  have hV2 : Rep (a := 256) (b := 4096) (φ := .f32) (V m c main_arg2) (toN2 (a := 256) (b := 4096) (φ := .f32) (m ((c : Thread nD τ).loc main_arg2))) := by
    rw [V_main_arg2]; exact rep_toN2 _
  have hW : Rep1 (a := 544768) (φ := .f32) (m ((c : Thread nD τ).loc main_arg3)) (toN1 (a := 544768) (φ := .f32) (m ((c : Thread nD τ).loc main_arg3))) := rep1_toN1 _
  have hU : Rep1 (a := 544768) (φ := .f32) (m ((c : Thread nD τ).loc main_arg4)) (toN1 (a := 544768) (φ := .f32) (m ((c : Thread nD τ).loc main_arg4))) := rep1_toN1 _
  have hB : Rep1 (a := 16384) (φ := .f32) (m ((c : Thread nD τ).loc main_arg5)) (toN1 (a := 16384) (φ := .f32) (m ((c : Thread nD τ).loc main_arg5))) := rep1_toN1 _
  have key := Cert.KBody.out12_rep (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    _ _ _ _ _ _ _ _ _ _ _ _
    (blk0_rep m c t _ hV0) (blk1_rep m c t _ hV1) (blk2_rep m c t _ hV2) (blk3_rep m c t _ (arr_main_v24 m c _ hB))
    (blk4_rep m c t _ (arr_main_v2 m c _ hW)) (blk5_rep m c t _ (arr_main_v5 m c _ hW)) (blk6_rep m c t _ (arr_main_v8 m c _ hW))
    (blk7_rep m c t _ (arr_main_v11 m c _ hW)) (blk8_rep m c t _ (arr_main_v14 m c _ hU)) (blk9_rep m c t _ (arr_main_v17 m c _ hU))
    (blk10_rep m c t _ (arr_main_v20 m c _ hU)) (blk11_rep m c t _ (arr_main_v23 m c _ hU)) p q
  refine key.trans ?_
  obtain ⟨-, -, -, -, -, -, e120, e121, e130, e131⟩ := idx_facts t
  have h : ((cfg0.win 12).blk t).view.emb (ix2 p q) = ix2 (⟨8 * t.val + p.val, by omega⟩ : Fin 256) (⟨q.val, q.isLt⟩ : Fin 4096) := by
    funext a; apply Fin.ext
    match a with
    | ⟨0, _⟩ => show win0_12.index t (0 : Fin 2) * 8 + 1 * p.val = 8 * t.val + p.val; omega
    | ⟨1, _⟩ => show win0_12.index t (1 : Fin 2) * 4096 + 1 * q.val = q.val; omega
  show _ = hidOf _ _ _ _ _ _ (((cfg0.win 12).blk t).view.emb (ix2 p q))
  rw [h]
  exact hid_tile _ _ _ _ _ _ t.val p.val q.val ht p.isLt q.isLt

/-- An index of the array is in point t's block iff each coordinate is in the block's range on its axis. -/
theorem mem_blk12 (t : Fin cfg0.N) (i : S256x4096.Idx) :
    i ∈ ((cfg0.win 12).blk t).view.set ↔ ∀ a : Fin 2, win0_12.index t a * S8x4096.size a ≤ (i a).val ∧ (i a).val < win0_12.index t a * S8x4096.size a + S8x4096.size a := by
  show i ∈ ((View.whole main_v25_0).slice (win0_12.rect t)).set ↔ _
  rw [View.set_slice_whole, Rect.mem_set_unit]
  exact Iff.rfl

/-- Every index of the array is in some point's block: row r is in the block of point r / 8. -/
theorem cover12 (i : S256x4096.Idx) :
    ∃ t : Fin cfg0.N, (cfg0.win 12).flush t = true ∧ i ∈ ((cfg0.win 12).blk t).view.set := by
  have hi0 : (i 0).val < 256 := (i 0).isLt
  have hi1 : (i 1).val < 4096 := (i 1).isLt
  have hN : cfg0.N = 32 := N_0
  have hlt : (i 0).val / 8 < cfg0.N := by rw [hN]; omega
  obtain ⟨-, -, -, -, -, -, e120, e121, e130, e131⟩ := idx_facts ⟨(i 0).val / 8, hlt⟩
  refine ⟨⟨(i 0).val / 8, hlt⟩, flush0_12 _, ?_⟩
  rw [mem_blk12]
  have f0 : win0_12.index ⟨(i 0).val / 8, hlt⟩ (0 : Fin 2) = (i 0).val / 8 := e120
  have f1 : win0_12.index ⟨(i 0).val / 8, hlt⟩ (1 : Fin 2) = 0 := e121
  intro a
  match a with
  | ⟨0, _⟩ => show win0_12.index ⟨(i 0).val / 8, hlt⟩ (0 : Fin 2) * 8 ≤ (i 0).val ∧ (i 0).val < win0_12.index ⟨(i 0).val / 8, hlt⟩ (0 : Fin 2) * 8 + 8; omega
  | ⟨1, _⟩ => show win0_12.index ⟨(i 0).val / 8, hlt⟩ (1 : Fin 2) * 4096 ≤ (i 1).val ∧ (i 1).val < win0_12.index ⟨(i 0).val / 8, hlt⟩ (1 : Fin 2) * 4096 + 4096; omega

/-- After the run the array is the new hidden state of the whole batch. -/
theorem final12 (c : Dev nD) : (dats m 0 c).arrAt 12 cfg0.N
    = hidOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 12 _ (fun t _ => flushed12_eq m c t) cover12

/-- The idealized kernel's run with both result arrays named: the new hidden state and the new cell state of the whole
    batch, the arguments unchanged. -/
theorem run : θ_run defs (onTc (τ := τ) (main (F := Ideal))) ⟨m, fun _ => 0, ρ⟩ fun r => ∀ c : Dev nD,
      r.2.mem ((c : Thread nD τ).loc main_v25_0) = hidOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_v25_1) = cellOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final12 m c), (h c).2.1.trans (final13 m c), (h c).2.2⟩)
    (Cert.KernelIdeal.Value.run_blocks m ρ)

end Cert.KVal

end
-- ==== Proof.RefBody.lean ====
/-
  The reference program, one operation at a time, read through natural-number coordinates.

  Each of the two contractions is a chain of re-layings, transpositions and rows-by-columns products of the batch
  with four cores cut from a flat parameter vector; every stage carries the relation "this array is that function
  of two coordinates" one step further, and the last stage is the tensor-train contraction of the specification.
  The pre-activation adds the two contractions and the bias; its four column blocks go through the hard sigmoid
  and the hyperbolic tangent, entry by entry, to the new cell state and the new hidden state.
-/
import proofs.«113918_j62294205661397_1_alg».proof.Proof.Imports
import proofs.«113918_j62294205661397_1_alg».proof.Proof.LibRep
import proofs.«113918_j62294205661397_1_alg».proof.Proof.Spec

noncomputable section

namespace Cert.RBody

open Idealize.ShloMosaic Idealize.ShloMosaic.ValueIdx Cert.TT Cert.Spec Cert.LibRep Cert.ReferenceIdeal Cert.ReferenceIdeal.Read

/-- The contraction of a batch of 256 rows, written out as its re-layings, transpositions and products. -/
theorem tt256_eq (X : ℕ → ℕ → EReal) (W : ℕ → EReal) :
    tt256 X W = transN (castN 131072 256 (transN (mm 512 (stageN 8388608 (mm 512 (stageN 8388608 (mm 512 (stageN 8388608 (mm 8 (castN 4096 8 X) (core3 W))) (core2 W))) (core1 W))) (core0 W)))) := rfl

/-! ## The first contraction: the input batch with the first parameter vector -/

theorem v1_rep (x3 : (⟨S544768, .f32⟩ : BufTy).Contents (Elt Ideal)) (W : ℕ → EReal) (hk : Rep1 (φ := .f32) x3 W) :
    Rep (φ := .f32) (val_main_v1 (F := Ideal) x3) (core3 W) := by
  unfold val_main_v1 val_main_v0
  exact rep_cast12 _ _ _ (rep1_slice 0 x3 _ W hk)

theorem v7_rep (x3 : (⟨S544768, .f32⟩ : BufTy).Contents (Elt Ideal)) (W : ℕ → EReal) (hk : Rep1 (φ := .f32) x3 W) :
    Rep (φ := .f32) (val_main_v7 (F := Ideal) x3) (core2 W) := by
  unfold val_main_v7 val_main_v6
  exact rep_cast12 _ _ _ (rep1_slice 4096 x3 _ W hk)

theorem v13_rep (x3 : (⟨S544768, .f32⟩ : BufTy).Contents (Elt Ideal)) (W : ℕ → EReal) (hk : Rep1 (φ := .f32) x3 W) :
    Rep (φ := .f32) (val_main_v13 (F := Ideal) x3) (core1 W) := by
  unfold val_main_v13 val_main_v12
  exact rep_cast12 _ _ _ (rep1_slice 266240 x3 _ W hk)

theorem v19_rep (x3 : (⟨S544768, .f32⟩ : BufTy).Contents (Elt Ideal)) (W : ℕ → EReal) (hk : Rep1 (φ := .f32) x3 W) :
    Rep (φ := .f32) (val_main_v19 (F := Ideal) x3) (core0 W) := by
  unfold val_main_v19 val_main_v18
  exact rep_cast12 _ _ _ (rep1_slice 528384 x3 _ W hk)

theorem v2_rep (x0 : (⟨S256x4096, .f32⟩ : BufTy).Contents (Elt Ideal)) (X : ℕ → ℕ → EReal) (ha : Rep (φ := .f32) x0 X) :
    Rep (φ := .f32) (val_main_v2 (F := Ideal) x0) (castN 4096 8 X) := by
  unfold val_main_v2
  exact rep_cast x0 _ X ha

theorem v3_step (x0 : (⟨S256x4096, .f32⟩ : BufTy).Contents (Elt Ideal)) (x3 : (⟨S544768, .f32⟩ : BufTy).Contents (Elt Ideal)) (L R : ℕ → ℕ → EReal)
    (hl : Rep (φ := .f32) (val_main_v2 (F := Ideal) x0) L) (hr : Rep (φ := .f32) (val_main_v1 (F := Ideal) x3) R) :
    Rep (φ := .f32) (val_main_v3 (F := Ideal) x0 x3) (mm 8 L R) := by
  unfold val_main_v3
  exact rep_dot _ .single _ _ L R hl hr

theorem v9_step (x0 : (⟨S256x4096, .f32⟩ : BufTy).Contents (Elt Ideal)) (x3 : (⟨S544768, .f32⟩ : BufTy).Contents (Elt Ideal)) (L R : ℕ → ℕ → EReal)
    (hl : Rep (φ := .f32) (val_main_v8 (F := Ideal) x0 x3) L) (hr : Rep (φ := .f32) (val_main_v7 (F := Ideal) x3) R) :
    Rep (φ := .f32) (val_main_v9 (F := Ideal) x0 x3) (mm 512 L R) := by
  unfold val_main_v9
  exact rep_dot _ .single _ _ L R hl hr

theorem v15_step (x0 : (⟨S256x4096, .f32⟩ : BufTy).Contents (Elt Ideal)) (x3 : (⟨S544768, .f32⟩ : BufTy).Contents (Elt Ideal)) (L R : ℕ → ℕ → EReal)
    (hl : Rep (φ := .f32) (val_main_v14 (F := Ideal) x0 x3) L) (hr : Rep (φ := .f32) (val_main_v13 (F := Ideal) x3) R) :
    Rep (φ := .f32) (val_main_v15 (F := Ideal) x0 x3) (mm 512 L R) := by
  unfold val_main_v15
  exact rep_dot _ .single _ _ L R hl hr

theorem v21_step (x0 : (⟨S256x4096, .f32⟩ : BufTy).Contents (Elt Ideal)) (x3 : (⟨S544768, .f32⟩ : BufTy).Contents (Elt Ideal)) (L R : ℕ → ℕ → EReal)
    (hl : Rep (φ := .f32) (val_main_v20 (F := Ideal) x0 x3) L) (hr : Rep (φ := .f32) (val_main_v19 (F := Ideal) x3) R) :
    Rep (φ := .f32) (val_main_v21 (F := Ideal) x0 x3) (mm 512 L R) := by
  unfold val_main_v21
  exact rep_dot _ .single _ _ L R hl hr

theorem v4_step (x0 : (⟨S256x4096, .f32⟩ : BufTy).Contents (Elt Ideal)) (x3 : (⟨S544768, .f32⟩ : BufTy).Contents (Elt Ideal)) (N : ℕ → ℕ → EReal) (h : Rep (φ := .f32) (val_main_v3 (F := Ideal) x0 x3) N) :
    Rep (φ := .f32) (val_main_v4 (F := Ideal) x0 x3) (castN 512 8 N) := by
  unfold val_main_v4
  exact rep_cast _ _ N h

theorem v8_step (x0 : (⟨S256x4096, .f32⟩ : BufTy).Contents (Elt Ideal)) (x3 : (⟨S544768, .f32⟩ : BufTy).Contents (Elt Ideal)) (N : ℕ → ℕ → EReal) (h : Rep (φ := .f32) (val_main_v5 (F := Ideal) x0 x3) N) :
    Rep (φ := .f32) (val_main_v8 (F := Ideal) x0 x3) (castN 8388608 512 N) := by
  unfold val_main_v8
  exact rep_cast _ _ N h

theorem v10_step (x0 : (⟨S256x4096, .f32⟩ : BufTy).Contents (Elt Ideal)) (x3 : (⟨S544768, .f32⟩ : BufTy).Contents (Elt Ideal)) (N : ℕ → ℕ → EReal) (h : Rep (φ := .f32) (val_main_v9 (F := Ideal) x0 x3) N) :
    Rep (φ := .f32) (val_main_v10 (F := Ideal) x0 x3) (castN 512 8 N) := by
  unfold val_main_v10
  exact rep_cast _ _ N h

theorem v14_step (x0 : (⟨S256x4096, .f32⟩ : BufTy).Contents (Elt Ideal)) (x3 : (⟨S544768, .f32⟩ : BufTy).Contents (Elt Ideal)) (N : ℕ → ℕ → EReal) (h : Rep (φ := .f32) (val_main_v11 (F := Ideal) x0 x3) N) :
    Rep (φ := .f32) (val_main_v14 (F := Ideal) x0 x3) (castN 8388608 512 N) := by
  unfold val_main_v14
  exact rep_cast _ _ N h

theorem v16_step (x0 : (⟨S256x4096, .f32⟩ : BufTy).Contents (Elt Ideal)) (x3 : (⟨S544768, .f32⟩ : BufTy).Contents (Elt Ideal)) (N : ℕ → ℕ → EReal) (h : Rep (φ := .f32) (val_main_v15 (F := Ideal) x0 x3) N) :
    Rep (φ := .f32) (val_main_v16 (F := Ideal) x0 x3) (castN 512 8 N) := by
  unfold val_main_v16
  exact rep_cast _ _ N h

theorem v20_step (x0 : (⟨S256x4096, .f32⟩ : BufTy).Contents (Elt Ideal)) (x3 : (⟨S544768, .f32⟩ : BufTy).Contents (Elt Ideal)) (N : ℕ → ℕ → EReal) (h : Rep (φ := .f32) (val_main_v17 (F := Ideal) x0 x3) N) :
    Rep (φ := .f32) (val_main_v20 (F := Ideal) x0 x3) (castN 8388608 512 N) := by
  unfold val_main_v20
  exact rep_cast _ _ N h

theorem v23_step (x0 : (⟨S256x4096, .f32⟩ : BufTy).Contents (Elt Ideal)) (x3 : (⟨S544768, .f32⟩ : BufTy).Contents (Elt Ideal)) (N : ℕ → ℕ → EReal) (h : Rep (φ := .f32) (val_main_v22 (F := Ideal) x0 x3) N) :
    Rep (φ := .f32) (val_main_v23 (F := Ideal) x0 x3) (castN 131072 256 N) := by
  unfold val_main_v23
  exact rep_cast _ _ N h

theorem v5_step (x0 : (⟨S256x4096, .f32⟩ : BufTy).Contents (Elt Ideal)) (x3 : (⟨S544768, .f32⟩ : BufTy).Contents (Elt Ideal)) (N : ℕ → ℕ → EReal) (h : Rep (φ := .f32) (val_main_v4 (F := Ideal) x0 x3) N) :
    Rep (φ := .f32) (val_main_v5 (F := Ideal) x0 x3) (transN N) := by
  unfold val_main_v5
  exact rep_trans _ _ N h

theorem v11_step (x0 : (⟨S256x4096, .f32⟩ : BufTy).Contents (Elt Ideal)) (x3 : (⟨S544768, .f32⟩ : BufTy).Contents (Elt Ideal)) (N : ℕ → ℕ → EReal) (h : Rep (φ := .f32) (val_main_v10 (F := Ideal) x0 x3) N) :
    Rep (φ := .f32) (val_main_v11 (F := Ideal) x0 x3) (transN N) := by
  unfold val_main_v11
  exact rep_trans _ _ N h

theorem v17_step (x0 : (⟨S256x4096, .f32⟩ : BufTy).Contents (Elt Ideal)) (x3 : (⟨S544768, .f32⟩ : BufTy).Contents (Elt Ideal)) (N : ℕ → ℕ → EReal) (h : Rep (φ := .f32) (val_main_v16 (F := Ideal) x0 x3) N) :
    Rep (φ := .f32) (val_main_v17 (F := Ideal) x0 x3) (transN N) := by
  unfold val_main_v17
  exact rep_trans _ _ N h

theorem v22_step (x0 : (⟨S256x4096, .f32⟩ : BufTy).Contents (Elt Ideal)) (x3 : (⟨S544768, .f32⟩ : BufTy).Contents (Elt Ideal)) (N : ℕ → ℕ → EReal) (h : Rep (φ := .f32) (val_main_v21 (F := Ideal) x0 x3) N) :
    Rep (φ := .f32) (val_main_v22 (F := Ideal) x0 x3) (transN N) := by
  unfold val_main_v22
  exact rep_trans _ _ N h

theorem v24_step (x0 : (⟨S256x4096, .f32⟩ : BufTy).Contents (Elt Ideal)) (x3 : (⟨S544768, .f32⟩ : BufTy).Contents (Elt Ideal)) (N : ℕ → ℕ → EReal) (h : Rep (φ := .f32) (val_main_v23 (F := Ideal) x0 x3) N) :
    Rep (φ := .f32) (val_main_v24 (F := Ideal) x0 x3) (transN N) := by
  unfold val_main_v24
  exact rep_trans _ _ N h

/-- After the first product. -/
theorem c3 (x0 : (⟨S256x4096, .f32⟩ : BufTy).Contents (Elt Ideal)) (x3 : (⟨S544768, .f32⟩ : BufTy).Contents (Elt Ideal)) (X : ℕ → ℕ → EReal) (W : ℕ → EReal)
    (ha : Rep (φ := .f32) x0 X) (hk : Rep1 (φ := .f32) x3 W) : Rep (φ := .f32) (val_main_v3 (F := Ideal) x0 x3) (mm 8 (castN 4096 8 X) (core3 W)) :=
  v3_step x0 x3 _ _ (v2_rep x0 X ha) (v1_rep x3 W hk)

theorem c8 (x0 : (⟨S256x4096, .f32⟩ : BufTy).Contents (Elt Ideal)) (x3 : (⟨S544768, .f32⟩ : BufTy).Contents (Elt Ideal)) (X : ℕ → ℕ → EReal) (W : ℕ → EReal)
    (ha : Rep (φ := .f32) x0 X) (hk : Rep1 (φ := .f32) x3 W) : Rep (φ := .f32) (val_main_v8 (F := Ideal) x0 x3) (stageN 8388608 (mm 8 (castN 4096 8 X) (core3 W))) :=
  v8_step x0 x3 _ (v5_step x0 x3 _ (v4_step x0 x3 _ (c3 x0 x3 X W ha hk)))

/-- After the second product. -/
theorem c9 (x0 : (⟨S256x4096, .f32⟩ : BufTy).Contents (Elt Ideal)) (x3 : (⟨S544768, .f32⟩ : BufTy).Contents (Elt Ideal)) (X : ℕ → ℕ → EReal) (W : ℕ → EReal)
    (ha : Rep (φ := .f32) x0 X) (hk : Rep1 (φ := .f32) x3 W) : Rep (φ := .f32) (val_main_v9 (F := Ideal) x0 x3) (mm 512 (stageN 8388608 (mm 8 (castN 4096 8 X) (core3 W))) (core2 W)) :=
  v9_step x0 x3 _ _ (c8 x0 x3 X W ha hk) (v7_rep x3 W hk)

theorem c14 (x0 : (⟨S256x4096, .f32⟩ : BufTy).Contents (Elt Ideal)) (x3 : (⟨S544768, .f32⟩ : BufTy).Contents (Elt Ideal)) (X : ℕ → ℕ → EReal) (W : ℕ → EReal)
    (ha : Rep (φ := .f32) x0 X) (hk : Rep1 (φ := .f32) x3 W) : Rep (φ := .f32) (val_main_v14 (F := Ideal) x0 x3) (stageN 8388608 (mm 512 (stageN 8388608 (mm 8 (castN 4096 8 X) (core3 W))) (core2 W))) :=
  v14_step x0 x3 _ (v11_step x0 x3 _ (v10_step x0 x3 _ (c9 x0 x3 X W ha hk)))

/-- After the third product. -/
theorem c15 (x0 : (⟨S256x4096, .f32⟩ : BufTy).Contents (Elt Ideal)) (x3 : (⟨S544768, .f32⟩ : BufTy).Contents (Elt Ideal)) (X : ℕ → ℕ → EReal) (W : ℕ → EReal)
    (ha : Rep (φ := .f32) x0 X) (hk : Rep1 (φ := .f32) x3 W) : Rep (φ := .f32) (val_main_v15 (F := Ideal) x0 x3) (mm 512 (stageN 8388608 (mm 512 (stageN 8388608 (mm 8 (castN 4096 8 X) (core3 W))) (core2 W))) (core1 W)) :=
  v15_step x0 x3 _ _ (c14 x0 x3 X W ha hk) (v13_rep x3 W hk)

theorem c20 (x0 : (⟨S256x4096, .f32⟩ : BufTy).Contents (Elt Ideal)) (x3 : (⟨S544768, .f32⟩ : BufTy).Contents (Elt Ideal)) (X : ℕ → ℕ → EReal) (W : ℕ → EReal)
    (ha : Rep (φ := .f32) x0 X) (hk : Rep1 (φ := .f32) x3 W) : Rep (φ := .f32) (val_main_v20 (F := Ideal) x0 x3) (stageN 8388608 (mm 512 (stageN 8388608 (mm 512 (stageN 8388608 (mm 8 (castN 4096 8 X) (core3 W))) (core2 W))) (core1 W))) :=
  v20_step x0 x3 _ (v17_step x0 x3 _ (v16_step x0 x3 _ (c15 x0 x3 X W ha hk)))

/-- After the fourth product. -/
theorem c21 (x0 : (⟨S256x4096, .f32⟩ : BufTy).Contents (Elt Ideal)) (x3 : (⟨S544768, .f32⟩ : BufTy).Contents (Elt Ideal)) (X : ℕ → ℕ → EReal) (W : ℕ → EReal)
    (ha : Rep (φ := .f32) x0 X) (hk : Rep1 (φ := .f32) x3 W) : Rep (φ := .f32) (val_main_v21 (F := Ideal) x0 x3) (mm 512 (stageN 8388608 (mm 512 (stageN 8388608 (mm 512 (stageN 8388608 (mm 8 (castN 4096 8 X) (core3 W))) (core2 W))) (core1 W))) (core0 W)) :=
  v21_step x0 x3 _ _ (c20 x0 x3 X W ha hk) (v19_rep x3 W hk)

theorem c24 (x0 : (⟨S256x4096, .f32⟩ : BufTy).Contents (Elt Ideal)) (x3 : (⟨S544768, .f32⟩ : BufTy).Contents (Elt Ideal)) (X : ℕ → ℕ → EReal) (W : ℕ → EReal)
    (ha : Rep (φ := .f32) x0 X) (hk : Rep1 (φ := .f32) x3 W) : Rep (φ := .f32) (val_main_v24 (F := Ideal) x0 x3) (transN (castN 131072 256 (transN (mm 512 (stageN 8388608 (mm 512 (stageN 8388608 (mm 512 (stageN 8388608 (mm 8 (castN 4096 8 X) (core3 W))) (core2 W))) (core1 W))) (core0 W))))) :=
  v24_step x0 x3 _ (v23_step x0 x3 _ (v22_step x0 x3 _ (c21 x0 x3 X W ha hk)))

/-- The first contraction of the reference is the tensor-train contraction of the batch with the four cores. -/
theorem v24_rep (x0 : (⟨S256x4096, .f32⟩ : BufTy).Contents (Elt Ideal)) (x3 : (⟨S544768, .f32⟩ : BufTy).Contents (Elt Ideal)) (X : ℕ → ℕ → EReal) (W : ℕ → EReal)
    (ha : Rep (φ := .f32) x0 X) (hk : Rep1 (φ := .f32) x3 W) : Rep (φ := .f32) (val_main_v24 (F := Ideal) x0 x3) (tt256 X W) := by
  rw [tt256_eq]
  exact c24 x0 x3 X W ha hk

/-! ## The second contraction: the previous hidden state with the second parameter vector -/

theorem v26_rep (x4 : (⟨S544768, .f32⟩ : BufTy).Contents (Elt Ideal)) (W : ℕ → EReal) (hk : Rep1 (φ := .f32) x4 W) :
    Rep (φ := .f32) (val_main_v26 (F := Ideal) x4) (core3 W) := by
  unfold val_main_v26 val_main_v25
  exact rep_cast12 _ _ _ (rep1_slice 0 x4 _ W hk)

theorem v32_rep (x4 : (⟨S544768, .f32⟩ : BufTy).Contents (Elt Ideal)) (W : ℕ → EReal) (hk : Rep1 (φ := .f32) x4 W) :
    Rep (φ := .f32) (val_main_v32 (F := Ideal) x4) (core2 W) := by
  unfold val_main_v32 val_main_v31
  exact rep_cast12 _ _ _ (rep1_slice 4096 x4 _ W hk)

theorem v38_rep (x4 : (⟨S544768, .f32⟩ : BufTy).Contents (Elt Ideal)) (W : ℕ → EReal) (hk : Rep1 (φ := .f32) x4 W) :
    Rep (φ := .f32) (val_main_v38 (F := Ideal) x4) (core1 W) := by
  unfold val_main_v38 val_main_v37
  exact rep_cast12 _ _ _ (rep1_slice 266240 x4 _ W hk)

theorem v44_rep (x4 : (⟨S544768, .f32⟩ : BufTy).Contents (Elt Ideal)) (W : ℕ → EReal) (hk : Rep1 (φ := .f32) x4 W) :
    Rep (φ := .f32) (val_main_v44 (F := Ideal) x4) (core0 W) := by
  unfold val_main_v44 val_main_v43
  exact rep_cast12 _ _ _ (rep1_slice 528384 x4 _ W hk)

theorem v27_rep (x1 : (⟨S256x4096, .f32⟩ : BufTy).Contents (Elt Ideal)) (X : ℕ → ℕ → EReal) (ha : Rep (φ := .f32) x1 X) :
    Rep (φ := .f32) (val_main_v27 (F := Ideal) x1) (castN 4096 8 X) := by
  unfold val_main_v27
  exact rep_cast x1 _ X ha

theorem v28_step (x1 : (⟨S256x4096, .f32⟩ : BufTy).Contents (Elt Ideal)) (x4 : (⟨S544768, .f32⟩ : BufTy).Contents (Elt Ideal)) (L R : ℕ → ℕ → EReal)
    (hl : Rep (φ := .f32) (val_main_v27 (F := Ideal) x1) L) (hr : Rep (φ := .f32) (val_main_v26 (F := Ideal) x4) R) :
    Rep (φ := .f32) (val_main_v28 (F := Ideal) x1 x4) (mm 8 L R) := by
  unfold val_main_v28
  exact rep_dot _ .single _ _ L R hl hr

theorem v34_step (x1 : (⟨S256x4096, .f32⟩ : BufTy).Contents (Elt Ideal)) (x4 : (⟨S544768, .f32⟩ : BufTy).Contents (Elt Ideal)) (L R : ℕ → ℕ → EReal)
    (hl : Rep (φ := .f32) (val_main_v33 (F := Ideal) x1 x4) L) (hr : Rep (φ := .f32) (val_main_v32 (F := Ideal) x4) R) :
    Rep (φ := .f32) (val_main_v34 (F := Ideal) x1 x4) (mm 512 L R) := by
  unfold val_main_v34
  exact rep_dot _ .single _ _ L R hl hr

theorem v40_step (x1 : (⟨S256x4096, .f32⟩ : BufTy).Contents (Elt Ideal)) (x4 : (⟨S544768, .f32⟩ : BufTy).Contents (Elt Ideal)) (L R : ℕ → ℕ → EReal)
    (hl : Rep (φ := .f32) (val_main_v39 (F := Ideal) x1 x4) L) (hr : Rep (φ := .f32) (val_main_v38 (F := Ideal) x4) R) :
    Rep (φ := .f32) (val_main_v40 (F := Ideal) x1 x4) (mm 512 L R) := by
  unfold val_main_v40
  exact rep_dot _ .single _ _ L R hl hr

theorem v46_step (x1 : (⟨S256x4096, .f32⟩ : BufTy).Contents (Elt Ideal)) (x4 : (⟨S544768, .f32⟩ : BufTy).Contents (Elt Ideal)) (L R : ℕ → ℕ → EReal)
    (hl : Rep (φ := .f32) (val_main_v45 (F := Ideal) x1 x4) L) (hr : Rep (φ := .f32) (val_main_v44 (F := Ideal) x4) R) :
    Rep (φ := .f32) (val_main_v46 (F := Ideal) x1 x4) (mm 512 L R) := by
  unfold val_main_v46
  exact rep_dot _ .single _ _ L R hl hr

theorem v29_step (x1 : (⟨S256x4096, .f32⟩ : BufTy).Contents (Elt Ideal)) (x4 : (⟨S544768, .f32⟩ : BufTy).Contents (Elt Ideal)) (N : ℕ → ℕ → EReal) (h : Rep (φ := .f32) (val_main_v28 (F := Ideal) x1 x4) N) :
    Rep (φ := .f32) (val_main_v29 (F := Ideal) x1 x4) (castN 512 8 N) := by
  unfold val_main_v29
  exact rep_cast _ _ N h

theorem v33_step (x1 : (⟨S256x4096, .f32⟩ : BufTy).Contents (Elt Ideal)) (x4 : (⟨S544768, .f32⟩ : BufTy).Contents (Elt Ideal)) (N : ℕ → ℕ → EReal) (h : Rep (φ := .f32) (val_main_v30 (F := Ideal) x1 x4) N) :
    Rep (φ := .f32) (val_main_v33 (F := Ideal) x1 x4) (castN 8388608 512 N) := by
  unfold val_main_v33
  exact rep_cast _ _ N h

theorem v35_step (x1 : (⟨S256x4096, .f32⟩ : BufTy).Contents (Elt Ideal)) (x4 : (⟨S544768, .f32⟩ : BufTy).Contents (Elt Ideal)) (N : ℕ → ℕ → EReal) (h : Rep (φ := .f32) (val_main_v34 (F := Ideal) x1 x4) N) :
    Rep (φ := .f32) (val_main_v35 (F := Ideal) x1 x4) (castN 512 8 N) := by
  unfold val_main_v35
  exact rep_cast _ _ N h

theorem v39_step (x1 : (⟨S256x4096, .f32⟩ : BufTy).Contents (Elt Ideal)) (x4 : (⟨S544768, .f32⟩ : BufTy).Contents (Elt Ideal)) (N : ℕ → ℕ → EReal) (h : Rep (φ := .f32) (val_main_v36 (F := Ideal) x1 x4) N) :
    Rep (φ := .f32) (val_main_v39 (F := Ideal) x1 x4) (castN 8388608 512 N) := by
  unfold val_main_v39
  exact rep_cast _ _ N h

theorem v41_step (x1 : (⟨S256x4096, .f32⟩ : BufTy).Contents (Elt Ideal)) (x4 : (⟨S544768, .f32⟩ : BufTy).Contents (Elt Ideal)) (N : ℕ → ℕ → EReal) (h : Rep (φ := .f32) (val_main_v40 (F := Ideal) x1 x4) N) :
    Rep (φ := .f32) (val_main_v41 (F := Ideal) x1 x4) (castN 512 8 N) := by
  unfold val_main_v41
  exact rep_cast _ _ N h

theorem v45_step (x1 : (⟨S256x4096, .f32⟩ : BufTy).Contents (Elt Ideal)) (x4 : (⟨S544768, .f32⟩ : BufTy).Contents (Elt Ideal)) (N : ℕ → ℕ → EReal) (h : Rep (φ := .f32) (val_main_v42 (F := Ideal) x1 x4) N) :
    Rep (φ := .f32) (val_main_v45 (F := Ideal) x1 x4) (castN 8388608 512 N) := by
  unfold val_main_v45
  exact rep_cast _ _ N h

theorem v48_step (x1 : (⟨S256x4096, .f32⟩ : BufTy).Contents (Elt Ideal)) (x4 : (⟨S544768, .f32⟩ : BufTy).Contents (Elt Ideal)) (N : ℕ → ℕ → EReal) (h : Rep (φ := .f32) (val_main_v47 (F := Ideal) x1 x4) N) :
    Rep (φ := .f32) (val_main_v48 (F := Ideal) x1 x4) (castN 131072 256 N) := by
  unfold val_main_v48
  exact rep_cast _ _ N h

theorem v30_step (x1 : (⟨S256x4096, .f32⟩ : BufTy).Contents (Elt Ideal)) (x4 : (⟨S544768, .f32⟩ : BufTy).Contents (Elt Ideal)) (N : ℕ → ℕ → EReal) (h : Rep (φ := .f32) (val_main_v29 (F := Ideal) x1 x4) N) :
    Rep (φ := .f32) (val_main_v30 (F := Ideal) x1 x4) (transN N) := by
  unfold val_main_v30
  exact rep_trans _ _ N h

theorem v36_step (x1 : (⟨S256x4096, .f32⟩ : BufTy).Contents (Elt Ideal)) (x4 : (⟨S544768, .f32⟩ : BufTy).Contents (Elt Ideal)) (N : ℕ → ℕ → EReal) (h : Rep (φ := .f32) (val_main_v35 (F := Ideal) x1 x4) N) :
    Rep (φ := .f32) (val_main_v36 (F := Ideal) x1 x4) (transN N) := by
  unfold val_main_v36
  exact rep_trans _ _ N h

theorem v42_step (x1 : (⟨S256x4096, .f32⟩ : BufTy).Contents (Elt Ideal)) (x4 : (⟨S544768, .f32⟩ : BufTy).Contents (Elt Ideal)) (N : ℕ → ℕ → EReal) (h : Rep (φ := .f32) (val_main_v41 (F := Ideal) x1 x4) N) :
    Rep (φ := .f32) (val_main_v42 (F := Ideal) x1 x4) (transN N) := by
  unfold val_main_v42
  exact rep_trans _ _ N h

theorem v47_step (x1 : (⟨S256x4096, .f32⟩ : BufTy).Contents (Elt Ideal)) (x4 : (⟨S544768, .f32⟩ : BufTy).Contents (Elt Ideal)) (N : ℕ → ℕ → EReal) (h : Rep (φ := .f32) (val_main_v46 (F := Ideal) x1 x4) N) :
    Rep (φ := .f32) (val_main_v47 (F := Ideal) x1 x4) (transN N) := by
  unfold val_main_v47
  exact rep_trans _ _ N h

theorem v49_step (x1 : (⟨S256x4096, .f32⟩ : BufTy).Contents (Elt Ideal)) (x4 : (⟨S544768, .f32⟩ : BufTy).Contents (Elt Ideal)) (N : ℕ → ℕ → EReal) (h : Rep (φ := .f32) (val_main_v48 (F := Ideal) x1 x4) N) :
    Rep (φ := .f32) (val_main_v49 (F := Ideal) x1 x4) (transN N) := by
  unfold val_main_v49
  exact rep_trans _ _ N h

/-- After the first product. -/
theorem c28 (x1 : (⟨S256x4096, .f32⟩ : BufTy).Contents (Elt Ideal)) (x4 : (⟨S544768, .f32⟩ : BufTy).Contents (Elt Ideal)) (X : ℕ → ℕ → EReal) (W : ℕ → EReal)
    (ha : Rep (φ := .f32) x1 X) (hk : Rep1 (φ := .f32) x4 W) : Rep (φ := .f32) (val_main_v28 (F := Ideal) x1 x4) (mm 8 (castN 4096 8 X) (core3 W)) :=
  v28_step x1 x4 _ _ (v27_rep x1 X ha) (v26_rep x4 W hk)

theorem c33 (x1 : (⟨S256x4096, .f32⟩ : BufTy).Contents (Elt Ideal)) (x4 : (⟨S544768, .f32⟩ : BufTy).Contents (Elt Ideal)) (X : ℕ → ℕ → EReal) (W : ℕ → EReal)
    (ha : Rep (φ := .f32) x1 X) (hk : Rep1 (φ := .f32) x4 W) : Rep (φ := .f32) (val_main_v33 (F := Ideal) x1 x4) (stageN 8388608 (mm 8 (castN 4096 8 X) (core3 W))) :=
  v33_step x1 x4 _ (v30_step x1 x4 _ (v29_step x1 x4 _ (c28 x1 x4 X W ha hk)))

/-- After the second product. -/
theorem c34 (x1 : (⟨S256x4096, .f32⟩ : BufTy).Contents (Elt Ideal)) (x4 : (⟨S544768, .f32⟩ : BufTy).Contents (Elt Ideal)) (X : ℕ → ℕ → EReal) (W : ℕ → EReal)
    (ha : Rep (φ := .f32) x1 X) (hk : Rep1 (φ := .f32) x4 W) : Rep (φ := .f32) (val_main_v34 (F := Ideal) x1 x4) (mm 512 (stageN 8388608 (mm 8 (castN 4096 8 X) (core3 W))) (core2 W)) :=
  v34_step x1 x4 _ _ (c33 x1 x4 X W ha hk) (v32_rep x4 W hk)

theorem c39 (x1 : (⟨S256x4096, .f32⟩ : BufTy).Contents (Elt Ideal)) (x4 : (⟨S544768, .f32⟩ : BufTy).Contents (Elt Ideal)) (X : ℕ → ℕ → EReal) (W : ℕ → EReal)
    (ha : Rep (φ := .f32) x1 X) (hk : Rep1 (φ := .f32) x4 W) : Rep (φ := .f32) (val_main_v39 (F := Ideal) x1 x4) (stageN 8388608 (mm 512 (stageN 8388608 (mm 8 (castN 4096 8 X) (core3 W))) (core2 W))) :=
  v39_step x1 x4 _ (v36_step x1 x4 _ (v35_step x1 x4 _ (c34 x1 x4 X W ha hk)))

/-- After the third product. -/
theorem c40 (x1 : (⟨S256x4096, .f32⟩ : BufTy).Contents (Elt Ideal)) (x4 : (⟨S544768, .f32⟩ : BufTy).Contents (Elt Ideal)) (X : ℕ → ℕ → EReal) (W : ℕ → EReal)
    (ha : Rep (φ := .f32) x1 X) (hk : Rep1 (φ := .f32) x4 W) : Rep (φ := .f32) (val_main_v40 (F := Ideal) x1 x4) (mm 512 (stageN 8388608 (mm 512 (stageN 8388608 (mm 8 (castN 4096 8 X) (core3 W))) (core2 W))) (core1 W)) :=
  v40_step x1 x4 _ _ (c39 x1 x4 X W ha hk) (v38_rep x4 W hk)

theorem c45 (x1 : (⟨S256x4096, .f32⟩ : BufTy).Contents (Elt Ideal)) (x4 : (⟨S544768, .f32⟩ : BufTy).Contents (Elt Ideal)) (X : ℕ → ℕ → EReal) (W : ℕ → EReal)
    (ha : Rep (φ := .f32) x1 X) (hk : Rep1 (φ := .f32) x4 W) : Rep (φ := .f32) (val_main_v45 (F := Ideal) x1 x4) (stageN 8388608 (mm 512 (stageN 8388608 (mm 512 (stageN 8388608 (mm 8 (castN 4096 8 X) (core3 W))) (core2 W))) (core1 W))) :=
  v45_step x1 x4 _ (v42_step x1 x4 _ (v41_step x1 x4 _ (c40 x1 x4 X W ha hk)))

/-- After the fourth product. -/
theorem c46 (x1 : (⟨S256x4096, .f32⟩ : BufTy).Contents (Elt Ideal)) (x4 : (⟨S544768, .f32⟩ : BufTy).Contents (Elt Ideal)) (X : ℕ → ℕ → EReal) (W : ℕ → EReal)
    (ha : Rep (φ := .f32) x1 X) (hk : Rep1 (φ := .f32) x4 W) : Rep (φ := .f32) (val_main_v46 (F := Ideal) x1 x4) (mm 512 (stageN 8388608 (mm 512 (stageN 8388608 (mm 512 (stageN 8388608 (mm 8 (castN 4096 8 X) (core3 W))) (core2 W))) (core1 W))) (core0 W)) :=
  v46_step x1 x4 _ _ (c45 x1 x4 X W ha hk) (v44_rep x4 W hk)

theorem c49 (x1 : (⟨S256x4096, .f32⟩ : BufTy).Contents (Elt Ideal)) (x4 : (⟨S544768, .f32⟩ : BufTy).Contents (Elt Ideal)) (X : ℕ → ℕ → EReal) (W : ℕ → EReal)
    (ha : Rep (φ := .f32) x1 X) (hk : Rep1 (φ := .f32) x4 W) : Rep (φ := .f32) (val_main_v49 (F := Ideal) x1 x4) (transN (castN 131072 256 (transN (mm 512 (stageN 8388608 (mm 512 (stageN 8388608 (mm 512 (stageN 8388608 (mm 8 (castN 4096 8 X) (core3 W))) (core2 W))) (core1 W))) (core0 W))))) :=
  v49_step x1 x4 _ (v48_step x1 x4 _ (v47_step x1 x4 _ (c46 x1 x4 X W ha hk)))

/-- The second contraction of the reference is the tensor-train contraction of the batch with the four cores. -/
theorem v49_rep (x1 : (⟨S256x4096, .f32⟩ : BufTy).Contents (Elt Ideal)) (x4 : (⟨S544768, .f32⟩ : BufTy).Contents (Elt Ideal)) (X : ℕ → ℕ → EReal) (W : ℕ → EReal)
    (ha : Rep (φ := .f32) x1 X) (hk : Rep1 (φ := .f32) x4 W) : Rep (φ := .f32) (val_main_v49 (F := Ideal) x1 x4) (tt256 X W) := by
  rw [tt256_eq]
  exact c49 x1 x4 X W ha hk

/-! ## The pre-activation and the entrywise tail -/

/-- An array that is `Z` on its index range, read at an index whose two coordinates are known. -/
theorem rep_at {a b : ℕ} (v : FVec Ideal ⟨2, ![a, b]⟩ .f32) (Z : ℕ → ℕ → EReal) (hz : Rep (φ := .f32) v Z)
    (i : (⟨2, ![a, b]⟩ : Shape).Idx) (m n : ℕ) (h0 : (i 0).val = m) (h1 : (i 1).val = n) : v i = Z m n :=
  (congrArg v (eq_ix2 i)).trans ((hz (i 0) (i 1)).trans (by rw [h0, h1]))

/-- The pre-activation: the sum of the two contractions and the bias spread over the rows. -/
theorem v53_step (x0 x1 : (⟨S256x4096, .f32⟩ : BufTy).Contents (Elt Ideal)) (x3 x4 : (⟨S544768, .f32⟩ : BufTy).Contents (Elt Ideal)) (x5 : (⟨S16384, .f32⟩ : BufTy).Contents (Elt Ideal)) (A B : ℕ → ℕ → EReal) (Bi : ℕ → EReal)
    (ha : Rep (φ := .f32) (val_main_v24 (F := Ideal) x0 x3) A) (hb : Rep (φ := .f32) (val_main_v49 (F := Ideal) x1 x4) B)
    (h5 : Rep1 (φ := .f32) x5 Bi) :
    Rep (φ := .f32) (val_main_v53 (F := Ideal) x0 x1 x3 x4 x5) (preN A B Bi) := by
  intro p q
  have e : idx_main_v51 (idx_main_v52 (ix2 p q)) = ix1 q := funext fun a => match a with | ⟨0, _⟩ => rfl
  rw [val_main_v53_apply, val_main_v50_apply, val_main_v52_apply, val_main_v51_apply, ha p q, hb p q, e, h5 q]
  rfl

theorem hs_i (x0 x1 : (⟨S256x4096, .f32⟩ : BufTy).Contents (Elt Ideal)) (x3 x4 : (⟨S544768, .f32⟩ : BufTy).Contents (Elt Ideal)) (x5 : (⟨S16384, .f32⟩ : BufTy).Contents (Elt Ideal)) (i : S256x4096.Idx) :
    val_main_v62 (F := Ideal) x0 x1 x3 x4 x5 i = hsig (val_main_v54 (F := Ideal) x0 x1 x3 x4 x5 i) := by
  rw [val_main_v62_apply, val_main_call0_v4_apply, val_main_call0_v3_apply, val_main_cst_2_apply,
    val_main_call0_v2_apply, val_main_call0_v1_apply, val_main_call0_v0_apply, val_main_cst_1_apply,
    val_main_v61_apply, val_main_v59_apply, val_main_v58_apply, val_main_cst_apply,
    val_main_v60_apply, val_main_cst_0_apply]
  rfl

theorem hs_f (x0 x1 : (⟨S256x4096, .f32⟩ : BufTy).Contents (Elt Ideal)) (x3 x4 : (⟨S544768, .f32⟩ : BufTy).Contents (Elt Ideal)) (x5 : (⟨S16384, .f32⟩ : BufTy).Contents (Elt Ideal)) (i : S256x4096.Idx) :
    val_main_v67 (F := Ideal) x0 x1 x3 x4 x5 i = hsig (val_main_v55 (F := Ideal) x0 x1 x3 x4 x5 i) := by
  rw [val_main_v67_apply, val_main_call1_v4_apply, val_main_call1_v3_apply, val_main_cst_6_apply,
    val_main_call1_v2_apply, val_main_call1_v1_apply, val_main_call1_v0_apply, val_main_cst_5_apply,
    val_main_v66_apply, val_main_v64_apply, val_main_v63_apply, val_main_cst_3_apply,
    val_main_v65_apply, val_main_cst_4_apply]
  rfl

theorem hs_o (x0 x1 : (⟨S256x4096, .f32⟩ : BufTy).Contents (Elt Ideal)) (x3 x4 : (⟨S544768, .f32⟩ : BufTy).Contents (Elt Ideal)) (x5 : (⟨S16384, .f32⟩ : BufTy).Contents (Elt Ideal)) (i : S256x4096.Idx) :
    val_main_v76 (F := Ideal) x0 x1 x3 x4 x5 i = hsig (val_main_v57 (F := Ideal) x0 x1 x3 x4 x5 i) := by
  rw [val_main_v76_apply, val_main_call2_v4_apply, val_main_call2_v3_apply, val_main_cst_10_apply,
    val_main_call2_v2_apply, val_main_call2_v1_apply, val_main_call2_v0_apply, val_main_cst_9_apply,
    val_main_v75_apply, val_main_v73_apply, val_main_v72_apply, val_main_cst_7_apply,
    val_main_v74_apply, val_main_cst_8_apply]
  rfl

/-- The new cell state, from the pre-activation and the previous cell state. -/
theorem v71_step (x0 x1 x2 : (⟨S256x4096, .f32⟩ : BufTy).Contents (Elt Ideal)) (x3 x4 : (⟨S544768, .f32⟩ : BufTy).Contents (Elt Ideal)) (x5 : (⟨S16384, .f32⟩ : BufTy).Contents (Elt Ideal)) (Z Cp : ℕ → ℕ → EReal)
    (hz : Rep (φ := .f32) (val_main_v53 (F := Ideal) x0 x1 x3 x4 x5) Z) (h2 : Rep (φ := .f32) x2 Cp) :
    Rep (φ := .f32) (val_main_v71 (F := Ideal) x0 x1 x2 x3 x4 x5) (cellN Z Cp) := by
  intro p q
  rw [val_main_v71_apply, val_main_v68_apply, val_main_v70_apply, val_main_v69_apply, hs_f, hs_i,
    val_main_v54_apply, val_main_v55_apply, val_main_v56_apply,
    rep_at _ Z hz (idx_main_v54 (ix2 p q)) p.val q.val rfl rfl,
    rep_at _ Z hz (idx_main_v55 (ix2 p q)) p.val (4096 + q.val) rfl rfl,
    rep_at _ Z hz (idx_main_v56 (ix2 p q)) p.val (8192 + q.val) rfl rfl, h2 p q]
  rfl

/-- The new hidden state. -/
theorem v78_step (x0 x1 x2 : (⟨S256x4096, .f32⟩ : BufTy).Contents (Elt Ideal)) (x3 x4 : (⟨S544768, .f32⟩ : BufTy).Contents (Elt Ideal)) (x5 : (⟨S16384, .f32⟩ : BufTy).Contents (Elt Ideal)) (Z Cp : ℕ → ℕ → EReal)
    (hz : Rep (φ := .f32) (val_main_v53 (F := Ideal) x0 x1 x3 x4 x5) Z) (h2 : Rep (φ := .f32) x2 Cp) :
    Rep (φ := .f32) (val_main_v78 (F := Ideal) x0 x1 x2 x3 x4 x5) (hidN Z Cp) := by
  intro p q
  rw [val_main_v78_apply, val_main_v77_apply, hs_o, val_main_v57_apply,
    rep_at _ Z hz (idx_main_v57 (ix2 p q)) p.val (12288 + q.val) rfl rfl,
    v71_step x0 x1 x2 x3 x4 x5 Z Cp hz h2 p q]
  rfl

/-- The reference's new cell state is the cell update of the pre-activation built from the two contractions. -/
theorem v71_rep (x0 x1 x2 : (⟨S256x4096, .f32⟩ : BufTy).Contents (Elt Ideal)) (x3 x4 : (⟨S544768, .f32⟩ : BufTy).Contents (Elt Ideal)) (x5 : (⟨S16384, .f32⟩ : BufTy).Contents (Elt Ideal))
    (X H Cp : ℕ → ℕ → EReal) (W U Bi : ℕ → EReal)
    (h0 : Rep (a := 256) (b := 4096) (φ := .f32) x0 X) (h1 : Rep (a := 256) (b := 4096) (φ := .f32) x1 H)
    (h2 : Rep (a := 256) (b := 4096) (φ := .f32) x2 Cp)
    (h3 : Rep1 (a := 544768) (φ := .f32) x3 W) (h4 : Rep1 (a := 544768) (φ := .f32) x4 U)
    (h5 : Rep1 (a := 16384) (φ := .f32) x5 Bi) :
    Rep (a := 256) (b := 4096) (φ := .f32) (val_main_v71 (F := Ideal) x0 x1 x2 x3 x4 x5)
      (cellN (preN (tt256 X W) (tt256 H U) Bi) Cp) :=
  v71_step x0 x1 x2 x3 x4 x5 _ Cp
    (v53_step x0 x1 x3 x4 x5 _ _ Bi (v24_rep x0 x3 X W h0 h3) (v49_rep x1 x4 H U h1 h4) h5) h2

/-- The reference's new hidden state likewise. -/
theorem v78_rep (x0 x1 x2 : (⟨S256x4096, .f32⟩ : BufTy).Contents (Elt Ideal)) (x3 x4 : (⟨S544768, .f32⟩ : BufTy).Contents (Elt Ideal)) (x5 : (⟨S16384, .f32⟩ : BufTy).Contents (Elt Ideal))
    (X H Cp : ℕ → ℕ → EReal) (W U Bi : ℕ → EReal)
    (h0 : Rep (a := 256) (b := 4096) (φ := .f32) x0 X) (h1 : Rep (a := 256) (b := 4096) (φ := .f32) x1 H)
    (h2 : Rep (a := 256) (b := 4096) (φ := .f32) x2 Cp)
    (h3 : Rep1 (a := 544768) (φ := .f32) x3 W) (h4 : Rep1 (a := 544768) (φ := .f32) x4 U)
    (h5 : Rep1 (a := 16384) (φ := .f32) x5 Bi) :
    Rep (a := 256) (b := 4096) (φ := .f32) (val_main_v78 (F := Ideal) x0 x1 x2 x3 x4 x5)
      (hidN (preN (tt256 X W) (tt256 H U) Bi) Cp) :=
  v78_step x0 x1 x2 x3 x4 x5 _ Cp
    (v53_step x0 x1 x3 x4 x5 _ _ Bi (v24_rep x0 x3 X W h0 h3) (v49_rep x1 x4 H U h1 h4) h5) h2

end Cert.RBody

end
-- ==== Proof.lean ====
/-
  A tensor-train recurrent cell computed tile by tile against the same cell computed on the whole batch.

  Both programs contract the input and the previous hidden state, each with four cores cut from a flat parameter
  vector, add the bias, and apply the cell update entry by entry. The kernel does this for eight rows of the batch
  at a time, the reference for all 256 rows at once. Over the extended reals a change of float format is the
  identity and a matrix product is a plain sum, so each contraction is a composition of row-major re-layings,
  transpositions and sums; rows of a batch are contracted independently, so the eight rows of a tile computed on
  their own are those rows of the whole batch's result. Every constant is the same float word on both sides and
  no algebraic law of the entries is used: the precondition is never opened.
-/
import proofs.«113918_j62294205661397_1_alg».proof.Defs
import proofs.«113918_j62294205661397_1_alg».proof.Proof.Gen.Kernel
import proofs.«113918_j62294205661397_1_alg».proof.Proof.Gen.Kernel.Skeleton
import proofs.«113918_j62294205661397_1_alg».proof.Proof.Gen.Kernel.Launch
import proofs.«113918_j62294205661397_1_alg».proof.Proof.Gen.Kernel.Points
import proofs.«113918_j62294205661397_1_alg».proof.Proof.Gen.Kernel.Frame
import proofs.«113918_j62294205661397_1_alg».proof.Proof.Gen.KernelIdeal
import proofs.«113918_j62294205661397_1_alg».proof.Proof.Gen.KernelIdeal.Skeleton
import proofs.«113918_j62294205661397_1_alg».proof.Proof.Gen.KernelIdeal.Launch
import proofs.«113918_j62294205661397_1_alg».proof.Proof.Gen.KernelIdeal.Points
import proofs.«113918_j62294205661397_1_alg».proof.Proof.Gen.KernelIdeal.Frame
import proofs.«113918_j62294205661397_1_alg».proof.Proof.Gen.ReferenceIdeal
import proofs.«113918_j62294205661397_1_alg».proof.Proof.Gen.Pre_finite_inputs
import Idealize.ShloMosaic.Adequacy
import Idealize.ShloMosaic.Init
import proofs.«113918_j62294205661397_1_alg».proof.Proof.KernelValue
import proofs.«113918_j62294205661397_1_alg».proof.Proof.RefBody

noncomputable section

namespace Cert.Proof

open Idealize.ShloMosaic Idealize.ShloMosaic.TcCoe Idealize.SL.Sem Idealize.ShloMosaic.ValueIdx
open Cert.LibRep Cert.Result

/-- The reference's new cell state is the cell update of the whole batch. -/
theorem ref_cell (x0 x1 x2 : (⟨Cert.ReferenceIdeal.S256x4096, .f32⟩ : BufTy).Contents (Elt Ideal))
    (x3 x4 : (⟨Cert.ReferenceIdeal.S544768, .f32⟩ : BufTy).Contents (Elt Ideal))
    (x5 : (⟨Cert.ReferenceIdeal.S16384, .f32⟩ : BufTy).Contents (Elt Ideal)) :
    Cert.ReferenceIdeal.Read.val_main_v71 (F := Ideal) x0 x1 x2 x3 x4 x5 = cellOf x0 x1 x2 x3 x4 x5 := by
  funext i
  obtain ⟨p, q, rfl⟩ : ∃ (p : Fin 256) (q : Fin 4096), i = ix2 p q := ⟨i 0, i 1, eq_ix2 i⟩
  exact Cert.RBody.v71_rep x0 x1 x2 x3 x4 x5 _ _ _ _ _ _ (rep_toN2 (a := 256) (b := 4096) (φ := .f32) x0)
    (rep_toN2 (a := 256) (b := 4096) (φ := .f32) x1) (rep_toN2 (a := 256) (b := 4096) (φ := .f32) x2)
    (rep1_toN1 (a := 544768) (φ := .f32) x3) (rep1_toN1 (a := 544768) (φ := .f32) x4) (rep1_toN1 (a := 16384) (φ := .f32) x5) p q

/-- The reference's new hidden state is that of the whole batch. -/
theorem ref_hid (x0 x1 x2 : (⟨Cert.ReferenceIdeal.S256x4096, .f32⟩ : BufTy).Contents (Elt Ideal))
    (x3 x4 : (⟨Cert.ReferenceIdeal.S544768, .f32⟩ : BufTy).Contents (Elt Ideal))
    (x5 : (⟨Cert.ReferenceIdeal.S16384, .f32⟩ : BufTy).Contents (Elt Ideal)) :
    Cert.ReferenceIdeal.Read.val_main_v78 (F := Ideal) x0 x1 x2 x3 x4 x5 = hidOf x0 x1 x2 x3 x4 x5 := by
  funext i
  obtain ⟨p, q, rfl⟩ : ∃ (p : Fin 256) (q : Fin 4096), i = ix2 p q := ⟨i 0, i 1, eq_ix2 i⟩
  exact Cert.RBody.v78_rep x0 x1 x2 x3 x4 x5 _ _ _ _ _ _ (rep_toN2 (a := 256) (b := 4096) (φ := .f32) x0)
    (rep_toN2 (a := 256) (b := 4096) (φ := .f32) x1) (rep_toN2 (a := 256) (b := 4096) (φ := .f32) x2)
    (rep1_toN1 (a := 544768) (φ := .f32) x3) (rep1_toN1 (a := 544768) (φ := .f32) x4) (rep1_toN1 (a := 16384) (φ := .f32) x5) p q

/-- Both idealized programs, from memories agreeing on the arguments, end with the same two arrays: the new hidden
    state and the new cell state of the whole batch. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KVal.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v78_eq, (hagree c).1, (hagree c).2.1, (hagree c).2.2.1, (hagree c).2.2.2.1,
      (hagree c).2.2.2.2.1, (hagree c).2.2.2.2.2]
    exact ref_hid _ _ _ _ _ _
  · rw [Cert.ReferenceIdeal.Read.val_main_v71_eq, (hagree c).1, (hagree c).2.1, (hagree c).2.2.1, (hagree c).2.2.2.1,
      (hagree c).2.2.2.2.1, (hagree c).2.2.2.2.2]
    exact ref_cell _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
